-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.sign_bit.Statement Cert.KernelIdeal.S2048x2048 .f32
  ∧ IdealRules.sign_bit.Statement Cert.KernelIdeal.S384x2048 .f32
  ∧ IdealRules.sign_bit.Statement Cert.KernelIdeal.S1024x384 .f32
  ∧ IdealRules.sign_bit.Statement Cert.KernelIdeal.S10x384 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16384 : Shape := ⟨2, ![8192, 16384]⟩
abbrev S384x16384 : Shape := ⟨2, ![384, 16384]⟩
abbrev S384 : Shape := ⟨1, ![384]⟩
abbrev S10x384 : Shape := ⟨2, ![10, 384]⟩
abbrev S_ : Shape := ⟨0, ![]⟩

class Facts : Prop where
  bcast_S_S8192x16384 : S_.BroadcastsInDim S8192x16384 (![] : Fin 0 → Fin S8192x16384.rank)
  reducesTo_S8192x16384_S_d0_1 : S8192x16384.ReducesTo [0, 1] S_
  h_S_ : 0 < S_.numel
  bcast_S_S384x16384 : S_.BroadcastsInDim S384x16384 (![] : Fin 0 → Fin S384x16384.rank)
  reducesTo_S384x16384_S_d0_1 : S384x16384.ReducesTo [0, 1] S_
  bcast_S_S384 : S_.BroadcastsInDim S384 (![] : Fin 0 → Fin S384.rank)
  reducesTo_S384_S_d0 : S384.ReducesTo [0] S_
  bcast_S_S10x384 : S_.BroadcastsInDim S10x384 (![] : Fin 0 → Fin S10x384.rank)
  reducesTo_S10x384_S_d0_1 : S10x384.ReducesTo [0, 1] S_

variable [Facts]

def fn_part1 {F : FTy → Type} [FloatOps F] (main_arg4 : FVec F S10x384 .f32) (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  let main_v19 : FVec F S10x384 .f32 := Host.absf main_arg4
  let main_cst_6 : FVec F S_ .f32 := constant S_ .f32 0x7F800000#32
  let main_v20 : FVec F S10x384 .f32 := broadcastInDim S10x384 ![] bcast_S_S10x384 main_cst_6
  let main_v21 : IVec S10x384 1 := cmpf .olt main_v19 main_v20
  let main_c_7 : IVec S_ 1 := constantI S_ 1 1#1
  let main_v22 : IVec S_ 1 := (fun x v => Host.reduce IntOp.andi x v reducesTo_S10x384_S_d0_1 h_S_) main_v21 main_c_7
  let main_v23 : IVec S_ 1 := andi main_v18 main_v22
  main_v23

def fn {F : FTy → Type} [FloatOps F] (main_arg0 : FVec F S8192x16384 .f32) (main_arg1 : FVec F S384x16384 .f32) (main_arg2 : FVec F S384 .f32) (main_arg3 : FVec F S384 .f32) (main_arg4 : FVec F S10x384 .f32) : IVec S_ 1 :=
  let main_v0 : FVec F S8192x16384 .f32 := Host.absf main_arg0
  let main_cst : FVec F S_ .f32 := constant S_ .f32 0x7F800000#32
  let main_v1 : FVec F S8192x16384 .f32 := broadcastInDim S8192x16384 ![] bcast_S_S8192x16384 main_cst
  let main_v2 : IVec S8192x16384 1 := cmpf .olt main_v0 main_v1
  let main_c : IVec S_ 1 := constantI S_ 1 1#1
  let main_v3 : IVec S_ 1 := (fun x v => Host.reduce IntOp.andi x v reducesTo_S8192x16384_S_d0_1 h_S_) main_v2 main_c
  let main_v4 : FVec F S384x16384 .f32 := Host.absf main_arg1
  let main_cst_0 : FVec F S_ .f32 := constant S_ .f32 0x7F800000#32
  let main_v5 : FVec F S384x16384 .f32 := broadcastInDim S384x16384 ![] bcast_S_S384x16384 main_cst_0
  let main_v6 : IVec S384x16384 1 := cmpf .olt main_v4 main_v5
  let main_c_1 : IVec S_ 1 := constantI S_ 1 1#1
  let main_v7 : IVec S_ 1 := (fun x v => Host.reduce IntOp.andi x v reducesTo_S384x16384_S_d0_1 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384 .f32 := Host.absf main_arg3
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_arg4 main_v13 main_v16
-- ==== Kernel.lean ====
abbrev S8192x16384 : Shape := ⟨2, ![8192, 16384]⟩
abbrev S384x16384 : Shape := ⟨2, ![384, 16384]⟩
abbrev S384 : Shape := ⟨1, ![384]⟩
abbrev S10x384 : Shape := ⟨2, ![10, 384]⟩
abbrev S8192x384 : Shape := ⟨2, ![8192, 384]⟩
abbrev S2048x2048 : Shape := ⟨2, ![2048, 2048]⟩
abbrev S384x2048 : Shape := ⟨2, ![384, 2048]⟩
abbrev S2048x384 : Shape := ⟨2, ![2048, 384]⟩
abbrev S_ : Shape := ⟨0, ![]⟩
abbrev S1x384 : Shape := ⟨2, ![1, 384]⟩
abbrev S8192x10 : Shape := ⟨2, ![8192, 10]⟩
abbrev S1024x384 : Shape := ⟨2, ![1024, 384]⟩
abbrev S1024x10 : Shape := ⟨2, ![1024, 10]⟩
abbrev S384x10 : Shape := ⟨2, ![384, 10]⟩

abbrev nBuf : Space → Nat
  | .hbm => 39
  | .vmem => 16
  | .smem => 0
  | _ => 0

abbrev bufTy : (tb : Table) → Fin (tcTables nBuf tb) → BufTy
  | .hbm, ⟨0, _⟩ => ⟨S8192x16384, .f32⟩
  | .hbm, ⟨1, _⟩ => ⟨S384x16384, .f32⟩
  | .hbm, ⟨2, _⟩ => ⟨S384, .f32⟩
  | .hbm, ⟨3, _⟩ => ⟨S384, .f32⟩
  | .hbm, ⟨4, _⟩ => ⟨S10x384, .f32⟩
  | .hbm, ⟨5, _⟩ => ⟨S8192x384, .f32⟩
  | .hbm, ⟨6, _⟩ => ⟨S_, .f32⟩
  | .hbm, ⟨7, _⟩ => ⟨S384, .f32⟩
  | .hbm, ⟨8, _⟩ => ⟨S1x384, .f32⟩
  | .hbm, ⟨9, _⟩ => ⟨S_, .f32⟩
  | .hbm, ⟨10, _⟩ => ⟨S1x384, .f32⟩
  | .hbm, ⟨11, _⟩ => ⟨S1x384, .f32⟩
  | .hbm, ⟨12, _⟩ => ⟨S_, .i32⟩
  | .hbm, ⟨13, _⟩ => ⟨S_, .f32⟩
  | .hbm, ⟨14, _⟩ => ⟨S384, .f32⟩
  | .hbm, ⟨15, _⟩ => ⟨S1x384, .f32⟩
  | .hbm, ⟨16, _⟩ => ⟨S_, .f32⟩
  | .hbm, ⟨17, _⟩ => ⟨S1x384, .f32⟩
  | .hbm, ⟨18, _⟩ => ⟨S1x384, .f32⟩
  | .hbm, ⟨19, _⟩ => ⟨S8192x384, .f32⟩
  | .hbm, ⟨20, _⟩ => ⟨S8192x384, .f32⟩
  | .hbm, ⟨21, _⟩ => ⟨S8192x384, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S384, .f32⟩
  | .hbm, ⟨27, _⟩ => ⟨S1x384, .f32⟩
  | .hbm, ⟨28, _⟩ => ⟨S1x384, .f32⟩
  | .hbm, ⟨29, _⟩ => ⟨S1x384, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S1x384, .f32⟩
  | .hbm, ⟨35, _⟩ => ⟨S1x384, .f32⟩
  | .hbm, ⟨36, _⟩ => ⟨S1x384, .f32⟩
  | .hbm, ⟨37, _⟩ => ⟨S1x384, .f32⟩
  | .hbm, ⟨38, _⟩ => ⟨S8192x10, .f32⟩
  | .local _ .vmem, ⟨0, _⟩ => ⟨S2048x2048, .f32⟩
  | .local _ .vmem, ⟨1, _⟩ => ⟨S2048x2048, .f32⟩
  | .local _ .vmem, ⟨2, _⟩ => ⟨S384x2048, .f32⟩
  | .local _ .vmem, ⟨3, _⟩ => ⟨S384x2048, .f32⟩
  | .local _ .vmem, ⟨4, _⟩ => ⟨S2048x384, .f32⟩
  | .local _ .vmem, ⟨5, _⟩ => ⟨S2048x384, .f32⟩
  | .local _ .vmem, ⟨6, _⟩ => ⟨S2048x384, .f32⟩
  | .local _ .vmem, ⟨7, _⟩ => ⟨S1024x384, .f32⟩
  | .local _ .vmem, ⟨8, _⟩ => ⟨S1024x384, .f32⟩
  | .local _ .vmem, ⟨9, _⟩ => ⟨S1x384, .f32⟩
  | .local _ .vmem, ⟨10, _⟩ => ⟨S1x384, .f32⟩
  | .local _ .vmem, ⟨11, _⟩ => ⟨S1x384, .f32⟩
  | .local _ .vmem, ⟨12, _⟩ => ⟨S1x384, .f32⟩
  | .local _ .vmem, ⟨13, _⟩ => ⟨S10x384, .f32⟩
  | .local _ .vmem, ⟨14, _⟩ => ⟨S1024x10, .f32⟩
  | .local _ .vmem, ⟨15, _⟩ => ⟨S1024x10, .f32⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_cst_3 : Ref sig .tc := ⟨.hbm, 30, rfl⟩
abbrev main_call0_v13 : Ref sig .tc := ⟨.hbm, 31, rfl⟩
abbrev main_call0_cst_4 : Ref sig .tc := ⟨.hbm, 32, rfl⟩
abbrev main_call0_call0_v0 : Ref sig .tc := ⟨.hbm, 33, rfl⟩
abbrev main_call0_call0_v1 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [BitOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S384x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S10x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x10 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S2048x384_S2048x384_0_0 : ∀ a, (![0, 0] : Fin 2 → Nat) a + S2048x384.size a ≤ S2048x384.size a
  h_S2048x384 : 0 < S2048x384.numel
  shapeCasts_S2048x384_S2048x384 : S2048x384.ShapeCasts S2048x384
  inb_S2048x2048_S2048x2048_0_0 : ∀ a, (![0, 0] : Fin 2 → Nat) a + S2048x2048.size a ≤ S2048x2048.size a
  h_S2048x2048 : 0 < S2048x2048.numel
  bitsLt_bf16_f32 : FTy.bits .bf16 < FTy.bits .f32
  inb_S384x2048_S384x2048_0_0 : ∀ a, (![0, 0] : Fin 2 → Nat) a + S384x2048.size a ≤ S384x2048.size a
  h_S384x2048 : 0 < S384x2048.numel
  transposes_S384x2048_p1_0_S2048x384 : S384x2048.Transposes [1, 0] S2048x384
  reducesTo_S8192x384_S384_d0 : S8192x384.ReducesTo [0] S384
  h_S_ : 0 < S_.numel
  bcast_S384_S1x384_1 : S384.BroadcastsInDim S1x384 (![1] : Fin 1 → Fin S1x384.rank)
  bcast_S_S1x384 : S_.BroadcastsInDim S1x384 (![] : Fin 0 → Fin S1x384.rank)
  bcast_S1x384_S8192x384_0_1 : S1x384.BroadcastsInDim S8192x384 (![0, 1] : Fin 2 → Fin S8192x384.rank)
  shapeCasts_S384_S1x384 : S384.ShapeCasts S1x384
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S1024x384 : S1x384.Broadcasts S1024x384
  inb_S10x384_S10x384_0_0 : ∀ a, (![0, 0] : Fin 2 → Nat) a + S10x384.size a ≤ S10x384.size a
  h_S10x384 : 0 < S10x384.numel
  transposes_S10x384_p1_0_S384x10 : S10x384.Transposes [1, 0] S384x10
  inb_S1024x10_S1024x10_0_0 : ∀ a, (![0, 0] : Fin 2 → Nat) a + S1024x10.size a ≤ S1024x10.size a
  h_S1024x10 : 0 < S1024x10.numel
  dot_S2048x2048_S2048x384_S2048x384_1_0_0_1_n_n_wf : DotDims.WF S2048x2048 S2048x384 S2048x384 [1] [0] [0] [1] [] []
  dot_S1024x384_S384x10_S1024x10_1_0_0_1_n_n_wf : DotDims.WF S1024x384 S384x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x16384.size a
  hwx0_0 : ∀ i : grid0.Coords, EltTy.bits .f32 = 32 ∨ (Rect.block (s := S8192x16384) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S384x2048.size a ≤ S384x16384.size a
  hwx0_1 : ∀ i : grid0.Coords, EltTy.bits .f32 = 32 ∨ (Rect.block (s := S384x16384) S384x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x384.size a ≤ S8192x384.size a
  hwx0_2 : ∀ i : grid0.Coords, EltTy.bits .f32 = 32 ∨ (Rect.block (s := S8192x384) S2048x384.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x384.size a ≤ S8192x384.size a
  hwx1_0 : ∀ i : grid1.Coords, EltTy.bits .f32 = 32 ∨ (Rect.block (s := S8192x384) S1024x384.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x384.size a ≤ S1x384.size a
  hwx1_1 : ∀ i : grid1.Coords, EltTy.bits .f32 = 32 ∨ (Rect.block (s := S1x384) S1x384.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x384.size a ≤ S1x384.size a
  hwx1_2 : ∀ i : grid1.Coords, EltTy.bits .f32 = 32 ∨ (Rect.block (s := S1x384) S1x384.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x384.size a ≤ S1x384.size a
  hwx1_3 : ∀ i : grid1.Coords, EltTy.bits .f32 = 32 ∨ (Rect.block (s := S1x384) S1x384.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x384.size a ≤ S1x384.size a
  hwx1_4 : ∀ i : grid1.Coords, EltTy.bits .f32 = 32 ∨ (Rect.block (s := S1x384) S1x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S10x384.size a ≤ S10x384.size a
  hwx1_5 : ∀ i : grid1.Coords, EltTy.bits .f32 = 32 ∨ (Rect.block (s := S10x384) S10x384.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x10.size a ≤ S8192x10.size a
  hwx1_6 : ∀ i : grid1.Coords, EltTy.bits .f32 = 32 ∨ (Rect.block (s := S8192x10) S1024x10.size (cc1_transform_6 i) (hinb1_6 i)).WholeWords (EltTy.packing .f32)

variable [Facts₀]

def dot_S2048x2048_S2048x384_S2048x384_1_0_0_1_n_n : DotDims S2048x2048 S2048x384 S2048x384 where
  lhsContracting := [1]
  rhsContracting := [0]
  lhsNonContracting := [0]
  rhsNonContracting := [1]
  lhsBatch := []
  rhsBatch := []
  wf := dot_S2048x2048_S2048x384_S2048x384_1_0_0_1_n_n_wf
def dot_S1024x384_S384x10_S1024x10_1_0_0_1_n_n : DotDims S1024x384 S384x10 S1024x10 where
  lhsContracting := [1]
  rhsContracting := [0]
  lhsNonContracting := [0]
  rhsNonContracting := [1]
  lhsBatch := []
  rhsBatch := []
  wf := dot_S1024x384_S384x10_S1024x10_1_0_0_1_n_n_wf

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S384x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x384.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x384.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S10x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1024x10.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8192x16384 : Shape := ⟨2, ![8192, 16384]⟩
abbrev S384x16384 : Shape := ⟨2, ![384, 16384]⟩
abbrev S384 : Shape := ⟨1, ![384]⟩
abbrev S10x384 : Shape := ⟨2, ![10, 384]⟩
abbrev S8192x384 : Shape := ⟨2, ![8192, 384]⟩
abbrev S_ : Shape := ⟨0, ![]⟩
abbrev S1x384 : Shape := ⟨2, ![1, 384]⟩
abbrev S8192x10 : Shape := ⟨2, ![8192, 10]⟩

abbrev nBuf : Space → Nat
  | .hbm => 57
  | .vmem => 0
  | .smem => 0
  | _ => 0

abbrev bufTy : (tb : Table) → Fin (tcTables nBuf tb) → BufTy
  | .hbm, ⟨0, _⟩ => ⟨S8192x16384, .f32⟩
  | .hbm, ⟨1, _⟩ => ⟨S384x16384, .f32⟩
  | .hbm, ⟨2, _⟩ => ⟨S384, .f32⟩
  | .hbm, ⟨3, _⟩ => ⟨S384, .f32⟩
  | .hbm, ⟨4, _⟩ => ⟨S10x384, .f32⟩
  | .hbm, ⟨5, _⟩ => ⟨S8192x16384, .f32⟩
  | .hbm, ⟨6, _⟩ => ⟨S8192x16384, .f32⟩
  | .hbm, ⟨7, _⟩ => ⟨S8192x16384, .f32⟩
  | .hbm, ⟨8, _⟩ => ⟨S384x16384, .f32⟩
  | .hbm, ⟨9, _⟩ => ⟨S384x16384, .f32⟩
  | .hbm, ⟨10, _⟩ => ⟨S384x16384, .f32⟩
  | .hbm, ⟨11, _⟩ => ⟨S8192x384, .f32⟩
  | .hbm, ⟨12, _⟩ => ⟨S_, .f32⟩
  | .hbm, ⟨13, _⟩ => ⟨S384, .f32⟩
  | .hbm, ⟨14, _⟩ => ⟨S_, .f32⟩
  | .hbm, ⟨15, _⟩ => ⟨S384, .f32⟩
  | .hbm, ⟨16, _⟩ => ⟨S384, .f32⟩
  | .hbm, ⟨17, _⟩ => ⟨S1x384, .f32⟩
  | .hbm, ⟨18, _⟩ => ⟨S8192x384, .f32⟩
  | .hbm, ⟨19, _⟩ => ⟨S8192x384, .f32⟩
  | .hbm, ⟨20, _⟩ => ⟨S8192x384, .f32⟩
  | .hbm, ⟨21, _⟩ => ⟨S_, .f32⟩
  | .hbm, ⟨22, _⟩ => ⟨S384, .f32⟩
  | .hbm, ⟨23, _⟩ => ⟨S_, .f32⟩
  | .hbm, ⟨24, _⟩ => ⟨S384, .f32⟩
  | .hbm, ⟨25, _⟩ => ⟨S384, .f32⟩
  | .hbm, ⟨26, _⟩ => ⟨S1x384, .f32⟩
  | .hbm, ⟨27, _⟩ => ⟨S8192x384, .f32⟩
  | .hbm, ⟨28, _⟩ => ⟨S8192x384, .f32⟩
  | .hbm, ⟨29, _⟩ => ⟨S_, .f32⟩
  | .hbm, ⟨30, _⟩ => ⟨S384, .f32⟩
  | .hbm, ⟨31, _⟩ => ⟨S384, .f32⟩
  | .hbm, ⟨32, _⟩ => ⟨S384, .f32⟩
  | .hbm, ⟨33, _⟩ => ⟨S1x384, .f32⟩
  | .hbm, ⟨34, _⟩ => ⟨S8192x384, .f32⟩
  | .hbm, ⟨35, _⟩ => ⟨S8192x384, .f32⟩
  | .hbm, ⟨36, _⟩ => ⟨S1x384, .f32⟩
  | .hbm, ⟨37, _⟩ => ⟨S8192x384, .f32⟩
  | .hbm, ⟨38, _⟩ => ⟨S8192x384, .f32⟩
  | .hbm, ⟨39, _⟩ => ⟨S1x384, .f32⟩
  | .hbm, ⟨40, _⟩ => ⟨S8192x384, .f32⟩
  | .hbm, ⟨41, _⟩ => ⟨S8192x384, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192x384, .f32⟩
  | .hbm, ⟨46, _⟩ => ⟨S8192x384, .f32⟩
  | .hbm, ⟨47, _⟩ => ⟨S_, .f32⟩
  | .hbm, ⟨48, _⟩ => ⟨S8192x384, .f32⟩
  | .hbm, ⟨49, _⟩ => ⟨S8192x384, .f32⟩
  | .hbm, ⟨50, _⟩ => ⟨S8192x384, .f32⟩
  | .hbm, ⟨51, _⟩ => ⟨S8192x384, .f32⟩
  | .hbm, ⟨52, _⟩ => ⟨S8192x384, .f32⟩
  | .hbm, ⟨53, _⟩ => ⟨S10x384, .f32⟩
  | .hbm, ⟨54, _⟩ => ⟨S10x384, .f32⟩
  | .hbm, ⟨55, _⟩ => ⟨S10x384, .f32⟩
  | .hbm, ⟨56, _⟩ => ⟨S8192x10, .f32⟩
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_cst_5 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]

class Facts₀ : Prop where
  reducesTo_S8192x384_S384_d0 : S8192x384.ReducesTo [0] S384
  h_S_ : 0 < S_.numel
  bcast_S_S384 : S_.BroadcastsInDim S384 (![] : Fin 0 → Fin S384.rank)
  bcast_S384_S1x384_1 : S384.BroadcastsInDim S1x384 (![1] : Fin 1 → Fin S1x384.rank)
  bcast_S1x384_S8192x384_0_1 : S1x384.BroadcastsInDim S8192x384 (![0, 1] : Fin 2 → Fin S8192x384.rank)
  bcast_S_S8192x384 : S_.BroadcastsInDim S8192x384 (![] : Fin 0 → Fin S8192x384.rank)
  dot_S8192x16384_S384x16384_S8192x384_1_1_0_0_n_n_wf : DotDims.WF S8192x16384 S384x16384 S8192x384 [1] [1] [0] [0] [] []
  dot_S8192x384_S10x384_S8192x10_1_1_0_0_n_n_wf : DotDims.WF S8192x384 S10x384 S8192x10 [1] [1] [0] [0] [] []

variable [Facts₀]

def dot_S8192x16384_S384x16384_S8192x384_1_1_0_0_n_n : DotDims S8192x16384 S384x16384 S8192x384 where
  lhsContracting := [1]
  rhsContracting := [1]
  lhsNonContracting := [0]
  rhsNonContracting := [0]
  lhsBatch := []
  rhsBatch := []
  wf := dot_S8192x16384_S384x16384_S8192x384_1_1_0_0_n_n_wf
def dot_S8192x384_S10x384_S8192x10_1_1_0_0_n_n : DotDims S8192x384 S10x384 S8192x10 where
  lhsContracting := [1]
  rhsContracting := [1]
  lhsNonContracting := [0]
  rhsNonContracting := [0]
  lhsBatch := []
  rhsBatch := []
  wf := dot_S8192x384_S10x384_S8192x10_1_1_0_0_n_n_wf

class Facts : Prop extends Facts₀ where

variable [Facts]
-- ==== Proof.KRegion0.lean ====
import proofs.«149079_j33569464385811_1_alg».proof.Proof.Gen.Kernel.Launch
import proofs.«149079_j33569464385811_1_alg».proof.Proof.Gen.Kernel.Skeleton
import proofs.«149079_j33569464385811_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! # Region 0: the first product, accumulated over the eight column blocks

The grid is 4 row blocks by 8 column blocks, the column block the fast axis: point `t` is row block `t / 8`, column
block `t % 8`. At each point the body adds the product of the two sign blocks into a scratch accumulator — reset to
zero first when `t % 8 = 0` — and copies the accumulator into the output block's buffer; the pipeline writes that
buffer back after the last column block (`t % 8 = 7`). Everything is stated at a parameter `V`, the buffer contents
when the region is entered. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch -/

/-- The reset's condition: the column-block coordinate is zero. -/
abbrev cond0 (i : grid0.Coords) : Prop := (Scalar.cmpi .ne (Scalar.extui (Scalar.cmpi .eq (BitVec.ofNat 32 (i 1).val) 0#32)) 0#32) = 1#1
/-- It holds at the points ≡ 0 (mod 8). -/
theorem hcond0 : ∀ t : Fin cfg0.N, cond0 (grid0.coords t) ↔ t.val % 8 = 0 :=
  (by decide +kernel : ∀ t : Fin grid0.N, cond0 (grid0.coords t) ↔ t.val % 8 = 0)

theorem hz2 : (![0, 0] : Fin 2 → ℕ) = fun _ => 0 := by funext a; fin_cases a <;> rfl

/-- A whole-block store covers the block. -/
theorem coverO (p0 : Vec F S2048x384 .f32) (y : S2048x384.Idx) :
    ∃ pc ∈ ([⟨Rect.unit (s := S2048x384) ![0, 0] S2048x384.size inb_S2048x384_S2048x384_0_0, p0⟩] : List (View.Piece (Elt F) S2048x384 .f32)), y ∈ pc.1.set :=
  View.cover_of_tiled [⟨Rect.unit (s := S2048x384) ![0, 0] S2048x384.size inb_S2048x384_S2048x384_0_0, p0⟩] S2048x384.size (by rfl) y
/-- So does a whole-block store after any other. -/
theorem coverO2 (p0 : Vec F S2048x384 .f32) (L : List (View.Piece (Elt F) S2048x384 .f32)) (y : S2048x384.Idx) :
    ∃ pc ∈ ((⟨Rect.unit (s := S2048x384) ![0, 0] S2048x384.size inb_S2048x384_S2048x384_0_0, p0⟩ : View.Piece (Elt F) S2048x384 .f32) :: L), y ∈ pc.1.set := by
  obtain ⟨pc, hm, hy⟩ := coverO p0 y
  rw [List.mem_singleton] at hm; subst hm
  exact ⟨_, List.mem_cons_self, hy⟩

/-! ## The body's triple, by case -/

set_option maxHeartbeats 1000000 in
/-- Away from the first column block: the accumulator at `s` goes to `s` plus the blocks' product (the payload
    `k0_pay2`), and the output buffer receives a copy. -/
theorem sound_kernel0_B (c : Dev nD) (E : Set ℕ) (i : grid0.Coords) (hc : ¬ cond0 i)
    (arg2 : Memref sig .tc .vmem S2048x2048 .f32) (harg2 : arg2.IsWhole) (arg3 : Memref sig .tc .vmem S384x2048 .f32) (harg3 : arg3.IsWhole)
    (arg4 : Memref sig .tc .vmem S2048x384 .f32) (harg4 : arg4.IsWhole) (arg5 : Memref sig .tc .vmem S2048x384 .f32) (harg5 : arg5.IsWhole)
    (x0 : Vec F S2048x2048 .f32) (x1 : Vec F S384x2048 .f32) (s : Vec F S2048x384 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (k0_pay2 x0 x1 s) ∗ owns (c : Thread nD τ) arg5 fullShare (k0_pay2 x0 x1 s)) -∗ K ⟨⟩))
      ⊢ wp frame (wpE (defs₀ (F := F)) Variants.none c none) E (cc0__matmul1_kernel i arg2 harg2 arg3 harg3 arg4 harg4 arg5 harg5) K := by
  simp only [cc0__matmul1_kernel_eq_skeleton]; unfold cc0__matmul1_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [View.read_writes_eq_canon _ _ _ (coverO _), View.canon_unit_zero hz2, View.readCov_unit_zero _ hz2]
    simp only [View.readAt_eq_ld, harg2.read_unread, harg3.read_unread, harg5.read_unread, View.ld_unit_zero (S := S2048x2048) hz2, View.ld_unit_zero (S := S384x2048) hz2, View.ld_unit_zero (S := S2048x384) hz2]
  iexists _; isplitr
  swap; · iexact HS
  ipureintro
  sl_unfold_run_names
  rw [View.read_writes_eq_canon _ _ _ (coverO _), View.canon_unit_zero hz2]
  simp only [View.readAt_eq_ld, harg2.read_unread, harg3.read_unread, harg5.read_unread, View.ld_unit_zero (S := S2048x2048) hz2, View.ld_unit_zero (S := S384x2048) hz2, View.ld_unit_zero (S := S2048x384) hz2]

set_option maxHeartbeats 1000000 in
/-- At the first column block: the accumulator, whatever it held, is reset to the zero block (`k0_pay1`) first. -/
theorem sound_kernel0_A (c : Dev nD) (E : Set ℕ) (i : grid0.Coords) (hc : cond0 i)
    (arg2 : Memref sig .tc .vmem S2048x2048 .f32) (harg2 : arg2.IsWhole) (arg3 : Memref sig .tc .vmem S384x2048 .f32) (harg3 : arg3.IsWhole)
    (arg4 : Memref sig .tc .vmem S2048x384 .f32) (harg4 : arg4.IsWhole) (arg5 : Memref sig .tc .vmem S2048x384 .f32) (harg5 : arg5.IsWhole)
    (x0 : Vec F S2048x2048 .f32) (x1 : Vec F S384x2048 .f32) (K : PUnit → sProp 𝕄) :
    iprop(owns (c : Thread nD τ) arg2 fullShare x0 ∗ owns (c : Thread nD τ) arg3 fullShare x1 ∗ (∃ d, owns (c : Thread nD τ) arg4 fullShare d)
        ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay2 x0 x1 k0_pay1) ∗ owns (c : Thread nD τ) arg5 fullShare (k0_pay2 x0 x1 k0_pay1)) -∗ K ⟨⟩))
      ⊢ wp frame (wpE (defs₀ (F := F)) Variants.none c none) E (cc0__matmul1_kernel i arg2 harg2 arg3 harg3 arg4 harg4 arg5 harg5) K := by
  simp only [cc0__matmul1_kernel_eq_skeleton]; unfold cc0__matmul1_kernel_skel
  unfold owns
  iintro ⟨⟨%f0, %hf0, H0⟩, ⟨%f1, %hf1, H1⟩, ⟨%d2, %f2, -, H2⟩, ⟨%ds, %fs, -, HS⟩, Hk⟩
  obtain rfl := harg2.eq_unread hf0; obtain rfl := harg3.eq_unread hf1
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [View.read_writes_eq_canon _ _ _ (coverO _), View.canon_unit_zero hz2,
      View.readCov_eq_canon _ _ _ (fun j => coverO2 _ _ _), View.canon_cons_unit_zero hz2, View.readCov_unit_zero _ hz2]
    simp only [View.readAt_eq_ld, harg2.read_unread, harg3.read_unread, View.ld_unit_zero (S := S2048x2048) hz2, View.ld_unit_zero (S := S384x2048) hz2, View.ld_unit_zero (S := S2048x384) hz2]
    exact View.ld_unit_zero (Val := Elt F) (S := S2048x384) (e := .f32) hz2 inb_S2048x384_S2048x384_0_0 (k0_pay2 x0 x1 k0_pay1)
  iexists _; isplitr
  swap; · iexact HS
  ipureintro
  sl_unfold_run_names
  rw [View.read_writes_eq_canon _ _ _ (coverO2 _ _), View.canon_cons_unit_zero hz2, View.readCov_unit_zero _ hz2]
  simp only [View.readAt_eq_ld, harg2.read_unread, harg3.read_unread, View.ld_unit_zero (S := S2048x2048) hz2, View.ld_unit_zero (S := S384x2048) hz2, View.ld_unit_zero (S := S2048x384) hz2]

/-! ## The accumulator, point by point -/

/-- The scratch operand, a whole scoped buffer. -/
abbrev scM : Memref sig .tc .vmem S2048x384 .f32 := Memref.whole cc0_scratch0

/-- What the accumulator (and the output block's buffer) holds after point `n`: the zero block plus the products of the
    column blocks met since the last reset — the body's payload folded along the points. -/
def acc0 (c : Dev nD) : (n : ℕ) → n < cfg0.N → Vec F S2048x384 .f32
  | 0, h => k0_pay2 (iblk0 V c 0 ⟨0, h⟩) (iblk0 V c 1 ⟨0, h⟩) k0_pay1
  | n + 1, h => k0_pay2 (iblk0 V c 0 ⟨n + 1, h⟩) (iblk0 V c 1 ⟨n + 1, h⟩)
      (if (n + 1) % 8 = 0 then k0_pay1 else acc0 c n (Nat.lt_of_succ_lt h))

/-- At a first column block the accumulator restarts from zero. -/
theorem acc0_A (c : Dev nD) (t : Fin cfg0.N) (h : t.val % 8 = 0) :
    acc0 V c t.val t.isLt = k0_pay2 (iblk0 V c 0 t) (iblk0 V c 1 t) k0_pay1 := by
  obtain ⟨n, hn⟩ := t
  cases n with
  | zero => rfl
  | succ n => simp only [acc0]; rw [if_pos h]

/-- Elsewhere it continues from the point before. -/
theorem acc0_B (c : Dev nD) (t : Fin cfg0.N) (h : ¬ t.val % 8 = 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h
  | succ n => simp only [acc0]; rw [if_neg h]; rfl

/-! ## The region's invariant -/

/-- The core's scoped buffers other than the accumulator (the second region's staging buffers), at any contents. -/
def restS (c : Dev nD) : sProp 𝕄 :=
  bigSepL [cc1_stg0_0, cc1_stg0_1, cc1_stg1_0, cc1_stg2_0, cc1_stg3_0, cc1_stg4_0, cc1_stg5_0, cc1_stg6_0, cc1_stg6_1]
    fun b => iprop(∃ f : Buf (Elt F) ((c : Thread nD τ).loc b), ((c : Thread nD τ).loc b) ↦{fullShare} f)

/-- The class invariant with the accumulator split off. -/
theorem PhiA0_eq (c : Dev nD) :
    (Pipeline.ΦA spec0 c : sProp 𝕄)
      = iprop(((∃ d, owns (c : Thread nD τ) scM fullShare d) ∗ restS c) ∗ (∃ r, prngReg c r)) := by
  unfold Pipeline.ΦA restS
  rw [Pipeline.scopedRest_eq_of_list spec0 c [cc0_scratch0, cc1_stg0_0, cc1_stg0_1, cc1_stg1_0, cc1_stg2_0, cc1_stg3_0, cc1_stg4_0, cc1_stg5_0, cc1_stg6_0, cc1_stg6_1] (by decide) (by decide)]
  simp only [scM, owns_whole]; rfl

/-- Before position `n`: at the start anything in the accumulator; afterwards what the point before left. -/
def PhiS (c : Dev nD) : (n : ℕ) → n ≤ cfg0.N → sProp 𝕄
  | 0, _ => Pipeline.ΦA spec0 c
  | n + 1, hn => iprop((owns (c : Thread nD τ) scM fullShare (acc0 V c n hn) ∗ restS c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scM fullShare (acc0 V c n hn) ∗ restS c) ∗ (∃ r, prngReg c r)) := rfl
theorem PhiS_pos (c : Dev nD) (n : ℕ) (h : n ≤ cfg0.N) (hz : n ≠ 0) :
    PhiS V c n h = iprop((owns (c : Thread nD τ) scM fullShare (acc0 V c (n - 1) (by omega)) ∗ restS c) ∗ (∃ r, prngReg c r)) := by
  cases n with
  | zero => exact absurd rfl hz
  | succ n => rfl

/-! ## The proof data -/

/-- Region 0's proof data on core `c`: the arrays as the region finds them; after the body at point `t` each input's
    buffer at its block, the output's at the accumulator; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 2000000 in
/-- The body at any point: the inputs' buffers hold their blocks; the invariant hands over the accumulator at what the
    point before left (at anything before the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.succ = PhiS V c (t.val + 1) t.isLt from rfl, PhiS_succ,
    after0_0, after0_1, after0_2, PhiS_castSucc V c t]
  by_cases h0 : t.val % 8 = 0
  · rw [acc0_A V c t h0]
    by_cases hz : t.val = 0
    · rw [PhiS_zero V c _ _ hz, PhiA0_eq]
      iintro ⟨⟨⟨HS, Hr⟩, Hg⟩, Ho, ⟨%d0, H0⟩, ⟨%d1, H1⟩, ⟨%d2, H2⟩⟩
      iapply (sound_kernel0_A c Set.univ (grid0.coords t) ((hcond0 t).mpr h0) _ _ _ _ _ _ _ _ (iblk0 V c 0 t) (iblk0 V c 1 t) _)
      isplitl [H0]; · iexact H0
      isplitl [H1]; · iexact H1
      isplitl [H2]; · iexists _; iexact H2
      isplitl [HS]; · iexact HS
      iintro ⟨H0, H1, H2, HS⟩
      isplitl [HS Hr Hg]
      · isplitr [Hg]
        · isplitl [HS]; · iexact HS
          iexact Hr
        iexact Hg
      isplitl [Ho]; · iexact Ho
      isplitl [H0]; · iexact H0
      isplitl [H1]; · iexact H1
      iexact H2
    · rw [PhiS_pos V c _ _ hz]
      iintro ⟨⟨⟨HS, Hr⟩, Hg⟩, Ho, ⟨%d0, H0⟩, ⟨%d1, H1⟩, ⟨%d2, H2⟩⟩
      iapply (sound_kernel0_A c Set.univ (grid0.coords t) ((hcond0 t).mpr h0) _ _ _ _ _ _ _ _ (iblk0 V c 0 t) (iblk0 V c 1 t) _)
      isplitl [H0]; · iexact H0
      isplitl [H1]; · iexact H1
      isplitl [H2]; · iexists _; iexact H2
      isplitl [HS]; · iexists _; iexact HS
      iintro ⟨H0, H1, H2, HS⟩
      isplitl [HS Hr Hg]
      · isplitr [Hg]
        · isplitl [HS]; · iexact HS
          iexact Hr
        iexact Hg
      isplitl [Ho]; · iexact Ho
      isplitl [H0]; · iexact H0
      isplitl [H1]; · iexact H1
      iexact H2
  · have hz : t.val ≠ 0 := fun e => h0 (by rw [e])
    rw [acc0_B V c t h0, PhiS_pos V c _ _ hz]
    iintro ⟨⟨⟨HS, Hr⟩, Hg⟩, Ho, ⟨%d0, H0⟩, ⟨%d1, H1⟩, ⟨%d2, H2⟩⟩
    iapply (sound_kernel0_B c Set.univ (grid0.coords t) (fun h => h0 ((hcond0 t).mp h)) _ _ _ _ _ _ _ _ (iblk0 V c 0 t) (iblk0 V c 1 t) _ _)
    isplitl [H0]; · iexact H0
    isplitl [H1]; · iexact H1
    isplitl [H2]; · iexists _; iexact H2
    isplitl [HS]; · iexact HS
    iintro ⟨H0, H1, H2, HS⟩
    isplitl [HS Hr Hg]
    · isplitr [Hg]
      · isplitl [HS]; · iexact HS
        iexact Hr
      iexact Hg
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS, Hr⟩, Hg⟩
  isplitr [Hg]
  · isplitl [HS]; · iexists _; iexact HS
    iexact Hr
  iexact Hg

end Cert.Kernel.Hand
end
-- ==== Proof.KRegion1.lean ====
import proofs.«149079_j33569464385811_1_alg».proof.Proof.Gen.Kernel.Launch
import proofs.«149079_j33569464385811_1_alg».proof.Proof.Gen.Kernel.Skeleton
import proofs.«149079_j33569464385811_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second kernel region, per point

The second pallas_call walks a grid of 8 points. At each point it is handed a block of 1024 rows of
the normalised activations (window 0), four row vectors of 384 entries (windows 1–4: scale, shift,
mean and variance, the same block at every point), and the 10 × 384 weight block (window 5, again
the same at every point); it writes one 1024 × 10 block of the result (window 6). The body reads
every input block whole, computes one product, and overwrites the whole output block, so what a
point leaves in the output's staging buffer is a function of the six input blocks alone.

Everything is stated at a parameter `V`: the buffer contents the region finds when it is entered.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the
    pipeline fetched it there: where it was not fetched the block index has not moved, and the
    body leaves an input's buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not the
    pipeline fetched it there: where it was not fetched the block index has not moved, and the
    body leaves an input's buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not the
    pipeline fetched it there: where it was not fetched the block index has not moved, and the
    body leaves an input's buffer as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether or not the
    pipeline fetched it there: where it was not fetched the block index has not moved, and the
    body leaves an input's buffer as it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether or not the
    pipeline fetched it there: where it was not fetched the block index has not moved, and the
    body leaves an input's buffer as it found it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether or not the
    pipeline fetched it there: where it was not fetched the block index has not moved, and the
    body leaves an input's buffer as it found it. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store go through the whole block -/

abbrev r1_0 : Rect S1024x384 := Rect.unit (s := S1024x384) ![0, 0] S1024x384.size inb_S1024x384_S1024x384_0_0
abbrev r1_1 : Rect S1x384 := Rect.unit (s := S1x384) ![0, 0] S1x384.size inb_S1x384_S1x384_0_0
abbrev r1_2 : Rect S10x384 := Rect.unit (s := S10x384) ![0, 0] S10x384.size inb_S10x384_S10x384_0_0
abbrev r1_3 : Rect S1024x10 := Rect.unit (s := S1024x10) ![0, 0] S1024x10.size inb_S1024x10_S1024x10_0_0

/-! ## What the body leaves in the output window's buffer -/

/-- Window 6's staging buffer after the body, from the six input blocks: one store of the whole
    block. The stored value is the product of the normalised, clamped and sign-rounded activation
    block (from windows 0, 4, 3, 1, 2: the activations, the variance, the mean, the scale, the
    shift) with the transposed sign-rounded weight block (window 5). -/
def out1_6 (x0 : Vec F S1024x384 .f32) (x1 : Vec F S1x384 .f32) (x2 : Vec F S1x384 .f32) (x3 : Vec F S1x384 .f32) (x4 : Vec F S1x384 .f32) (x5 : Vec F S10x384 .f32) : Vec F S1024x10 .f32 :=
  View.canon [⟨r1_3, k1_pay1 (k1_pay2 (View.ld x0 r1_0) (View.ld x4 r1_1) (View.ld x3 r1_1) (View.ld x1 r1_1) (View.ld x2 r1_1)) (View.ld x5 r1_2) (k1_pay3 (View.ld x5 r1_2))⟩]

/-- The one store tiles the buffer, so it covers it. -/
theorem cover1_6 (p0 : Vec F S1024x10 .f32) (y : S1024x10.Idx) :
    ∃ pc ∈ ([⟨r1_3, p0⟩] : List (View.Piece (Elt F) S1024x10 .f32)), y ∈ pc.1.set :=
  View.cover_of_tiled [⟨r1_3, p0⟩] S1024x10.size (by rfl) y

/-! ## The body's triple -/

set_option maxHeartbeats 1000000 in
/-- The kernel body on whole staging memrefs, the inputs' at contents `xW` and the output's at
    anything, runs to the continuation holding the inputs' as they were and the output's at
    `out1_6` of the inputs'. -/
theorem sound_kernel1 (c : Dev nD) (E : Set ℕ) (i : grid1.Coords) (arg1 : Memref sig .tc .vmem S1024x384 .f32) (harg1 : arg1.IsWhole) (arg2 : Memref sig .tc .vmem S1x384 .f32) (harg2 : arg2.IsWhole) (arg3 : Memref sig .tc .vmem S1x384 .f32) (harg3 : arg3.IsWhole) (arg4 : Memref sig .tc .vmem S1x384 .f32) (harg4 : arg4.IsWhole) (arg5 : Memref sig .tc .vmem S1x384 .f32) (harg5 : arg5.IsWhole) (arg6 : Memref sig .tc .vmem S10x384 .f32) (harg6 : arg6.IsWhole) (arg7 : Memref sig .tc .vmem S1024x10 .f32) (harg7 : arg7.IsWhole)
    (x0 : Vec F S1024x384 .f32) (x1 : Vec F S1x384 .f32) (x2 : Vec F S1x384 .f32) (x3 : Vec F S1x384 .f32) (x4 : Vec F S1x384 .f32) (x5 : Vec F S10x384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__matmul2_kernel i arg1 harg1 arg2 harg2 arg3 harg3 arg4 harg4 arg5 harg5 arg6 harg6 arg7 harg7) K := by
  simp only [cc1__matmul2_kernel_eq_skeleton]; unfold cc1__matmul2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of the second pipeline on core `c`: the arrays as the region finds them; after
    the body at point `t` each input's buffer at its block and the output's at `out1_6` of the six
    input blocks; the invariant is that the scoped rest and the generator register are untouched;
    nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so `sound_kernel1` applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
import proofs.«149079_j33569464385811_1_alg».proof.Proof.KRegion0
import proofs.«149079_j33569464385811_1_alg».proof.Proof.KRegion1
import proofs.«149079_j33569464385811_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! # The run: region 0, three stretches of host operations, region 1

## The buffer contents at each boundary: a fold through the program -/

/-- Core `c`'s buffers at launch (region 0's entry). -/
abbrev W0 : Dev nD → Valuation τ sig (Elt F) := fun c b => m (c, b)
/-- The same read at the TensorCore's references. -/
abbrev V0r : (c : Dev nD) → (b : Ref sig .tc) → Buf (Elt F) ((c : Thread nD τ).loc b) := fun c b => W0 m c b
/-- At region 0's exit: its arrays at what its write-backs leave, every other buffer as entered. -/
def W1 (c : Dev nD) : Valuation τ sig (Elt F) :=
  Pipeline.withArrays spec0 c (W0 m c) fun w => (dat0 (V0r m) c).arrAt w cfg0.N
theorem W1_arr (c : Dev nD) (w : Fin cfg0.W) :
    W1 m c (Proc.devRef .tc (Pipeline.arrRef spec0 w)) = (dat0 (V0r m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1r : (c : Dev nD) → (b : Ref sig .tc) → Buf (Elt F) ((c : Thread nD τ).loc b) := fun c b => W1 m c b
theorem hF0 (c : Dev nD) (w : Fin cfg0.W) : (dat0 (V0r m) c).arrAt w cfg0.N = V1r m c (Pipeline.arrRef spec0 w) :=
  (W1_arr m c w).symm
theorem hrest0 (c : Dev nD) : ∀ b, b ∉ Finset.univ.image (Pipeline.arrRef spec0) → V1r m c b = V0r m c b :=
  fun b hb => W1_of_ne m c b fun w e => hb (Finset.mem_image.mpr ⟨w, Finset.mem_univ _, e⟩)

/-- After the three stretches of host operations (region 1's entry). -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev V4r : (c : Dev nD) → (b : Ref sig .tc) → Buf (Elt F) ((c : Thread nD τ).loc b) := fun c b => W4 m c b
/-- At region 1's exit. -/
def W5 (c : Dev nD) : Valuation τ sig (Elt F) :=
  Pipeline.withArrays spec1 c (W4 m c) fun w => (dat1 (V4r m) c).arrAt w cfg1.N
theorem W5_arr (c : Dev nD) (w : Fin cfg1.W) :
    W5 m c (Proc.devRef .tc (Pipeline.arrRef spec1 w)) = (dat1 (V4r m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5r : (c : Dev nD) → (b : Ref sig .tc) → Buf (Elt F) ((c : Thread nD τ).loc b) := fun c b => W5 m c b
theorem hF1 (c : Dev nD) (w : Fin cfg1.W) : (dat1 (V4r m) c).arrAt w cfg1.N = V5r m c (Pipeline.arrRef spec1 w) :=
  (W5_arr m c w).symm
theorem hrest1 (c : Dev nD) : ∀ b, b ∉ Finset.univ.image (Pipeline.arrRef spec1) → V5r m c b = V4r m c b :=
  fun b hb => W5_of_ne m c b fun w e => hb (Finset.mem_image.mpr ⟨w, Finset.mem_univ _, e⟩)

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V0r m) c
  | ⟨1, _⟩ => fun c => dat1 (V4r m) c
abbrev 𝒱₀ : Variants := Variants.none
abbrev L0 : GSem nD τ sig → Finset Unit := fun _ => ∅
abbrev lv0 : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at `W0`, left at `W1`. -/
def reg0 : Pipeline.RegionSeg (pcfgs (F := F)) adm' (pdats m) () defs₀ 𝒱₀ L0 lv0 0 where
  win := launch0.win.to₀
  block_pos := launch0.block_pos
  stage_whole := launch0.stage_whole
  K := PEmpty
  osem k := k.elim
  ho := Pipeline.OwnSemFacts.none _
  hbody c := (body_obligation0 (V0r m) c).loose
  hwaits := Pipeline.hwaits_of_owed_zero _ _ _ _ L0 lv0 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0r m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (V0r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V0r m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (V0r m c) (V1r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W4`, left at `W5`. -/
def reg1 : Pipeline.RegionSeg (pcfgs (F := F)) adm' (pdats m) () defs₀ 𝒱₀ L0 lv0 1 where
  win := launch1.win.to₀
  block_pos := launch1.block_pos
  stage_whole := launch1.stage_whole
  K := PEmpty
  osem k := k.elim
  ho := Pipeline.OwnSemFacts.none _
  hbody c := (body_obligation1 (V4r m) c).loose
  hwaits := Pipeline.hwaits_of_owed_zero _ _ _ _ L0 lv0 1 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4r m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (V4r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (V4r m c) (V5r m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm' (pdats m) () defs₀ 𝒱₀ L0 lv0) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .region (reg1 m) ]

set_option backward.isDefEq.respectTransparency.types false in
/-- THE RUN: from any memory with zero counters every weakly fair execution of the program terminates, nothing
    faulting, and every final state holds every unscoped buffer of every core at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm' (pdats m) () cellOf_inj emb₁ defs₀ 𝒱₀ L0 lv0 m ρ main (segs m)
    (fun c Q => by
      rewrite [main_chain c, Pipeline.Seg.run_eq_chain,
        show (segs m).map Pipeline.Seg.prog = [
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L0 lv0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Hand
end
-- ==== Proof.KFrame.lean ====
import proofs.«149079_j33569464385811_1_alg».proof.Proof.KRun

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.Pipeline (Dat)

variable {F : FTy → Type} [BitOps F]

variable (m : (ℓ : Loc nD τ sig) → Buf (Elt F) ℓ) (ρ : Dev nD → PrngReg)

/-! # The argument arrays end as launched

No stretch of host operations writes an argument, region 0 only reads `main_arg0` and `main_arg1` (input windows),
region 1 only reads `main_arg4`; so the fold of boundary contents at an argument walks back to the launch memory. -/

/-- A buffer no host operation between the regions writes is the same before and after them. -/
theorem W4_of (c : Dev nD) (b : Ref sig .tc) (h1 : b ∉ hostOps1_W) (h2 : b ∉ hostOps1_1_W) (h3 : b ∉ hostOps1_2_W) :
    W4 m c (Proc.devRef .tc b) = W1 m c (Proc.devRef .tc b) :=
  (StableHlo.after_of_writes_sub hostOps1_2 _ hostOps1_2_writes h3).trans <|
    (StableHlo.after_of_writes_sub hostOps1_1 _ hostOps1_1_writes h2).trans <|
      StableHlo.after_of_writes_sub hostOps1 _ hostOps1_writes h1

theorem W5_main_arg0 (c : Dev nD) : W5 m c (Proc.devRef .tc main_arg0) = m ((c : Thread nD τ).loc main_arg0) :=
  (W5_of_ne m c main_arg0 (by decide)).trans <| (W4_of m c main_arg0 (by decide) (by decide) (by decide)).trans <|
    (W1_arr m c 0).trans (((dat0 (V0r m) c).arrAt_in 0 rfl _).trans (A_eq0 (V0r m) c 0))
theorem W5_main_arg1 (c : Dev nD) : W5 m c (Proc.devRef .tc main_arg1) = m ((c : Thread nD τ).loc main_arg1) :=
  (W5_of_ne m c main_arg1 (by decide)).trans <| (W4_of m c main_arg1 (by decide) (by decide) (by decide)).trans <|
    (W1_arr m c 1).trans (((dat0 (V0r m) c).arrAt_in 1 rfl _).trans (A_eq0 (V0r m) c 1))
theorem W5_main_arg2 (c : Dev nD) : W5 m c (Proc.devRef .tc main_arg2) = m ((c : Thread nD τ).loc main_arg2) :=
  (W5_of_ne m c main_arg2 (by decide)).trans <| (W4_of m c main_arg2 (by decide) (by decide) (by decide)).trans <|
    W1_of_ne m c main_arg2 (by decide)
theorem W5_main_arg3 (c : Dev nD) : W5 m c (Proc.devRef .tc main_arg3) = m ((c : Thread nD τ).loc main_arg3) :=
  (W5_of_ne m c main_arg3 (by decide)).trans <| (W4_of m c main_arg3 (by decide) (by decide) (by decide)).trans <|
    W1_of_ne m c main_arg3 (by decide)
theorem W5_main_arg4 (c : Dev nD) : W5 m c (Proc.devRef .tc main_arg4) = m ((c : Thread nD τ).loc main_arg4) :=
  (W5_arr m c 5).trans <| ((dat1 (V4r m) c).arrAt_in 5 rfl _).trans <| (A_eq1 (V4r m) c 5).trans <|
    (W4_of m c main_arg4 (by decide) (by decide) (by decide)).trans <| W1_of_ne m c main_arg4 (by decide)

/-- THE RUN, read at the result and the arguments: the result array at the last boundary's contents, every argument as launched. -/
theorem run_result : θ_run defs (onTc (τ := τ) (main (F := F))) ⟨m, fun _ => 0, ρ⟩ (fun r => ∀ c : Dev nD,
      r.2.mem ((c.tc : Thread nD τ).loc main_v8) = W5 m c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v8 (by decide)),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_result m ρ)

end Cert.Kernel.Hand
end
-- ==== Proof.Region0.lean ====
import proofs.«149079_j33569464385811_1_alg».proof.Proof.Gen.KernelIdeal.Launch
import proofs.«149079_j33569464385811_1_alg».proof.Proof.Gen.KernelIdeal.Skeleton
import proofs.«149079_j33569464385811_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the first product, accumulated over the eight column blocks

The grid is 4 row blocks by 8 column blocks, the column block the fast axis: point `t` is row block `t / 8`, column
block `t % 8`. At each point the body adds the product of the two sign blocks into a scratch accumulator — reset to
zero first when `t % 8 = 0` — and copies the accumulator into the output block's buffer; the pipeline writes that
buffer back after the last column block (`t % 8 = 7`). Everything is stated at a parameter `V`, the buffer contents
when the region is entered. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch -/

/-- The reset's condition: the column-block coordinate is zero. -/
abbrev cond0 (i : grid0.Coords) : Prop := (Scalar.cmpi .ne (Scalar.extui (Scalar.cmpi .eq (BitVec.ofNat 32 (i 1).val) 0#32)) 0#32) = 1#1
/-- It holds at the points ≡ 0 (mod 8). -/
theorem hcond0 : ∀ t : Fin cfg0.N, cond0 (grid0.coords t) ↔ t.val % 8 = 0 :=
  (by decide +kernel : ∀ t : Fin grid0.N, cond0 (grid0.coords t) ↔ t.val % 8 = 0)

theorem hz2 : (![0, 0] : Fin 2 → ℕ) = fun _ => 0 := by funext a; fin_cases a <;> rfl

/-- A whole-block store covers the block. -/
theorem coverO (p0 : Vec F S2048x384 .f32) (y : S2048x384.Idx) :
    ∃ pc ∈ ([⟨Rect.unit (s := S2048x384) ![0, 0] S2048x384.size inb_S2048x384_S2048x384_0_0, p0⟩] : List (View.Piece (Elt F) S2048x384 .f32)), y ∈ pc.1.set :=
  View.cover_of_tiled [⟨Rect.unit (s := S2048x384) ![0, 0] S2048x384.size inb_S2048x384_S2048x384_0_0, p0⟩] S2048x384.size (by rfl) y
/-- So does a whole-block store after any other. -/
theorem coverO2 (p0 : Vec F S2048x384 .f32) (L : List (View.Piece (Elt F) S2048x384 .f32)) (y : S2048x384.Idx) :
    ∃ pc ∈ ((⟨Rect.unit (s := S2048x384) ![0, 0] S2048x384.size inb_S2048x384_S2048x384_0_0, p0⟩ : View.Piece (Elt F) S2048x384 .f32) :: L), y ∈ pc.1.set := by
  obtain ⟨pc, hm, hy⟩ := coverO p0 y
  rw [List.mem_singleton] at hm; subst hm
  exact ⟨_, List.mem_cons_self, hy⟩

/-! ## The body's triple, by case -/

set_option maxHeartbeats 1000000 in
/-- Away from the first column block: the accumulator at `s` goes to `s` plus the blocks' product (the payload
    `k0_pay2`), and the output buffer receives a copy. -/
theorem sound_kernel0_B (c : Dev nD) (E : Set ℕ) (i : grid0.Coords) (hc : ¬ cond0 i)
    (arg2 : Memref sig .tc .vmem S2048x2048 .f32) (harg2 : arg2.IsWhole) (arg3 : Memref sig .tc .vmem S384x2048 .f32) (harg3 : arg3.IsWhole)
    (arg4 : Memref sig .tc .vmem S2048x384 .f32) (harg4 : arg4.IsWhole) (arg5 : Memref sig .tc .vmem S2048x384 .f32) (harg5 : arg5.IsWhole)
    (x0 : Vec F S2048x2048 .f32) (x1 : Vec F S384x2048 .f32) (s : Vec F S2048x384 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (k0_pay2 x0 x1 s) ∗ owns (c : Thread nD τ) arg5 fullShare (k0_pay2 x0 x1 s)) -∗ K ⟨⟩))
      ⊢ wp frame (wpE (defs₀ (F := F)) Variants.none c none) E (cc0__matmul1_kernel i arg2 harg2 arg3 harg3 arg4 harg4 arg5 harg5) K := by
  simp only [cc0__matmul1_kernel_eq_skeleton]; unfold cc0__matmul1_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [View.read_writes_eq_canon _ _ _ (coverO _), View.canon_unit_zero hz2, View.readCov_unit_zero _ hz2]
    simp only [View.readAt_eq_ld, harg2.read_unread, harg3.read_unread, harg5.read_unread, View.ld_unit_zero (S := S2048x2048) hz2, View.ld_unit_zero (S := S384x2048) hz2, View.ld_unit_zero (S := S2048x384) hz2]
  iexists _; isplitr
  swap; · iexact HS
  ipureintro
  sl_unfold_run_names
  rw [View.read_writes_eq_canon _ _ _ (coverO _), View.canon_unit_zero hz2]
  simp only [View.readAt_eq_ld, harg2.read_unread, harg3.read_unread, harg5.read_unread, View.ld_unit_zero (S := S2048x2048) hz2, View.ld_unit_zero (S := S384x2048) hz2, View.ld_unit_zero (S := S2048x384) hz2]

set_option maxHeartbeats 1000000 in
/-- At the first column block: the accumulator, whatever it held, is reset to the zero block (`k0_pay1`) first. -/
theorem sound_kernel0_A (c : Dev nD) (E : Set ℕ) (i : grid0.Coords) (hc : cond0 i)
    (arg2 : Memref sig .tc .vmem S2048x2048 .f32) (harg2 : arg2.IsWhole) (arg3 : Memref sig .tc .vmem S384x2048 .f32) (harg3 : arg3.IsWhole)
    (arg4 : Memref sig .tc .vmem S2048x384 .f32) (harg4 : arg4.IsWhole) (arg5 : Memref sig .tc .vmem S2048x384 .f32) (harg5 : arg5.IsWhole)
    (x0 : Vec F S2048x2048 .f32) (x1 : Vec F S384x2048 .f32) (K : PUnit → sProp 𝕄) :
    iprop(owns (c : Thread nD τ) arg2 fullShare x0 ∗ owns (c : Thread nD τ) arg3 fullShare x1 ∗ (∃ d, owns (c : Thread nD τ) arg4 fullShare d)
        ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay2 x0 x1 k0_pay1) ∗ owns (c : Thread nD τ) arg5 fullShare (k0_pay2 x0 x1 k0_pay1)) -∗ K ⟨⟩))
      ⊢ wp frame (wpE (defs₀ (F := F)) Variants.none c none) E (cc0__matmul1_kernel i arg2 harg2 arg3 harg3 arg4 harg4 arg5 harg5) K := by
  simp only [cc0__matmul1_kernel_eq_skeleton]; unfold cc0__matmul1_kernel_skel
  unfold owns
  iintro ⟨⟨%f0, %hf0, H0⟩, ⟨%f1, %hf1, H1⟩, ⟨%d2, %f2, -, H2⟩, ⟨%ds, %fs, -, HS⟩, Hk⟩
  obtain rfl := harg2.eq_unread hf0; obtain rfl := harg3.eq_unread hf1
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_run_names
    rw [View.read_writes_eq_canon _ _ _ (coverO _), View.canon_unit_zero hz2,
      View.readCov_eq_canon _ _ _ (fun j => coverO2 _ _ _), View.canon_cons_unit_zero hz2, View.readCov_unit_zero _ hz2]
    simp only [View.readAt_eq_ld, harg2.read_unread, harg3.read_unread, View.ld_unit_zero (S := S2048x2048) hz2, View.ld_unit_zero (S := S384x2048) hz2, View.ld_unit_zero (S := S2048x384) hz2]
    exact View.ld_unit_zero (Val := Elt F) (S := S2048x384) (e := .f32) hz2 inb_S2048x384_S2048x384_0_0 (k0_pay2 x0 x1 k0_pay1)
  iexists _; isplitr
  swap; · iexact HS
  ipureintro
  sl_unfold_run_names
  rw [View.read_writes_eq_canon _ _ _ (coverO2 _ _), View.canon_cons_unit_zero hz2, View.readCov_unit_zero _ hz2]
  simp only [View.readAt_eq_ld, harg2.read_unread, harg3.read_unread, View.ld_unit_zero (S := S2048x2048) hz2, View.ld_unit_zero (S := S384x2048) hz2, View.ld_unit_zero (S := S2048x384) hz2]

/-! ## The accumulator, point by point -/

/-- The scratch operand, a whole scoped buffer. -/
abbrev scM : Memref sig .tc .vmem S2048x384 .f32 := Memref.whole cc0_scratch0

/-- What the accumulator (and the output block's buffer) holds after point `n`: the zero block plus the products of the
    column blocks met since the last reset — the body's payload folded along the points. -/
def acc0 (c : Dev nD) : (n : ℕ) → n < cfg0.N → Vec F S2048x384 .f32
  | 0, h => k0_pay2 (iblk0 V c 0 ⟨0, h⟩) (iblk0 V c 1 ⟨0, h⟩) k0_pay1
  | n + 1, h => k0_pay2 (iblk0 V c 0 ⟨n + 1, h⟩) (iblk0 V c 1 ⟨n + 1, h⟩)
      (if (n + 1) % 8 = 0 then k0_pay1 else acc0 c n (Nat.lt_of_succ_lt h))

/-- At a first column block the accumulator restarts from zero. -/
theorem acc0_A (c : Dev nD) (t : Fin cfg0.N) (h : t.val % 8 = 0) :
    acc0 V c t.val t.isLt = k0_pay2 (iblk0 V c 0 t) (iblk0 V c 1 t) k0_pay1 := by
  obtain ⟨n, hn⟩ := t
  cases n with
  | zero => rfl
  | succ n => simp only [acc0]; rw [if_pos h]

/-- Elsewhere it continues from the point before. -/
theorem acc0_B (c : Dev nD) (t : Fin cfg0.N) (h : ¬ t.val % 8 = 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h
  | succ n => simp only [acc0]; rw [if_neg h]; rfl

/-! ## The region's invariant -/

/-- The core's scoped buffers other than the accumulator (the second region's staging buffers), at any contents. -/
def restS (c : Dev nD) : sProp 𝕄 :=
  bigSepL [cc1_stg0_0, cc1_stg0_1, cc1_stg1_0, cc1_stg2_0, cc1_stg3_0, cc1_stg4_0, cc1_stg5_0, cc1_stg6_0, cc1_stg6_1]
    fun b => iprop(∃ f : Buf (Elt F) ((c : Thread nD τ).loc b), ((c : Thread nD τ).loc b) ↦{fullShare} f)

/-- The class invariant with the accumulator split off. -/
theorem PhiA0_eq (c : Dev nD) :
    (Pipeline.ΦA spec0 c : sProp 𝕄)
      = iprop(((∃ d, owns (c : Thread nD τ) scM fullShare d) ∗ restS c) ∗ (∃ r, prngReg c r)) := by
  unfold Pipeline.ΦA restS
  rw [Pipeline.scopedRest_eq_of_list spec0 c [cc0_scratch0, cc1_stg0_0, cc1_stg0_1, cc1_stg1_0, cc1_stg2_0, cc1_stg3_0, cc1_stg4_0, cc1_stg5_0, cc1_stg6_0, cc1_stg6_1] (by decide) (by decide)]
  simp only [scM, owns_whole]; rfl

/-- Before position `n`: at the start anything in the accumulator; afterwards what the point before left. -/
def PhiS (c : Dev nD) : (n : ℕ) → n ≤ cfg0.N → sProp 𝕄
  | 0, _ => Pipeline.ΦA spec0 c
  | n + 1, hn => iprop((owns (c : Thread nD τ) scM fullShare (acc0 V c n hn) ∗ restS c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scM fullShare (acc0 V c n hn) ∗ restS c) ∗ (∃ r, prngReg c r)) := rfl
theorem PhiS_pos (c : Dev nD) (n : ℕ) (h : n ≤ cfg0.N) (hz : n ≠ 0) :
    PhiS V c n h = iprop((owns (c : Thread nD τ) scM fullShare (acc0 V c (n - 1) (by omega)) ∗ restS c) ∗ (∃ r, prngReg c r)) := by
  cases n with
  | zero => exact absurd rfl hz
  | succ n => rfl

/-! ## The proof data -/

/-- Region 0's proof data on core `c`: the arrays as the region finds them; after the body at point `t` each input's
    buffer at its block, the output's at the accumulator; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 2000000 in
/-- The body at any point: the inputs' buffers hold their blocks; the invariant hands over the accumulator at what the
    point before left (at anything before the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.succ = PhiS V c (t.val + 1) t.isLt from rfl, PhiS_succ,
    after0_0, after0_1, after0_2, PhiS_castSucc V c t]
  by_cases h0 : t.val % 8 = 0
  · rw [acc0_A V c t h0]
    by_cases hz : t.val = 0
    · rw [PhiS_zero V c _ _ hz, PhiA0_eq]
      iintro ⟨⟨⟨HS, Hr⟩, Hg⟩, Ho, ⟨%d0, H0⟩, ⟨%d1, H1⟩, ⟨%d2, H2⟩⟩
      iapply (sound_kernel0_A c Set.univ (grid0.coords t) ((hcond0 t).mpr h0) _ _ _ _ _ _ _ _ (iblk0 V c 0 t) (iblk0 V c 1 t) _)
      isplitl [H0]; · iexact H0
      isplitl [H1]; · iexact H1
      isplitl [H2]; · iexists _; iexact H2
      isplitl [HS]; · iexact HS
      iintro ⟨H0, H1, H2, HS⟩
      isplitl [HS Hr Hg]
      · isplitr [Hg]
        · isplitl [HS]; · iexact HS
          iexact Hr
        iexact Hg
      isplitl [Ho]; · iexact Ho
      isplitl [H0]; · iexact H0
      isplitl [H1]; · iexact H1
      iexact H2
    · rw [PhiS_pos V c _ _ hz]
      iintro ⟨⟨⟨HS, Hr⟩, Hg⟩, Ho, ⟨%d0, H0⟩, ⟨%d1, H1⟩, ⟨%d2, H2⟩⟩
      iapply (sound_kernel0_A c Set.univ (grid0.coords t) ((hcond0 t).mpr h0) _ _ _ _ _ _ _ _ (iblk0 V c 0 t) (iblk0 V c 1 t) _)
      isplitl [H0]; · iexact H0
      isplitl [H1]; · iexact H1
      isplitl [H2]; · iexists _; iexact H2
      isplitl [HS]; · iexists _; iexact HS
      iintro ⟨H0, H1, H2, HS⟩
      isplitl [HS Hr Hg]
      · isplitr [Hg]
        · isplitl [HS]; · iexact HS
          iexact Hr
        iexact Hg
      isplitl [Ho]; · iexact Ho
      isplitl [H0]; · iexact H0
      isplitl [H1]; · iexact H1
      iexact H2
  · have hz : t.val ≠ 0 := fun e => h0 (by rw [e])
    rw [acc0_B V c t h0, PhiS_pos V c _ _ hz]
    iintro ⟨⟨⟨HS, Hr⟩, Hg⟩, Ho, ⟨%d0, H0⟩, ⟨%d1, H1⟩, ⟨%d2, H2⟩⟩
    iapply (sound_kernel0_B c Set.univ (grid0.coords t) (fun h => h0 ((hcond0 t).mp h)) _ _ _ _ _ _ _ _ (iblk0 V c 0 t) (iblk0 V c 1 t) _ _)
    isplitl [H0]; · iexact H0
    isplitl [H1]; · iexact H1
    isplitl [H2]; · iexists _; iexact H2
    isplitl [HS]; · iexact HS
    iintro ⟨H0, H1, H2, HS⟩
    isplitl [HS Hr Hg]
    · isplitr [Hg]
      · isplitl [HS]; · iexact HS
        iexact Hr
      iexact Hg
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS, Hr⟩, Hg⟩
  isplitr [Hg]
  · isplitl [HS]; · iexists _; iexact HS
    iexact Hr
  iexact Hg

end Cert.KernelIdeal.Hand
end
-- ==== Proof.Region1.lean ====
import proofs.«149079_j33569464385811_1_alg».proof.Proof.Gen.KernelIdeal.Launch
import proofs.«149079_j33569464385811_1_alg».proof.Proof.Gen.KernelIdeal.Skeleton
import proofs.«149079_j33569464385811_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second kernel region, per point

The second pallas_call walks a grid of 8 points. At each point it is handed a block of 1024 rows of
the normalised activations (window 0), four row vectors of 384 entries (windows 1–4: scale, shift,
mean and variance, the same block at every point), and the 10 × 384 weight block (window 5, again
the same at every point); it writes one 1024 × 10 block of the result (window 6). The body reads
every input block whole, computes one product, and overwrites the whole output block, so what a
point leaves in the output's staging buffer is a function of the six input blocks alone.

Everything is stated at a parameter `V`: the buffer contents the region finds when it is entered.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the
    pipeline fetched it there: where it was not fetched the block index has not moved, and the
    body leaves an input's buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not the
    pipeline fetched it there: where it was not fetched the block index has not moved, and the
    body leaves an input's buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not the
    pipeline fetched it there: where it was not fetched the block index has not moved, and the
    body leaves an input's buffer as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether or not the
    pipeline fetched it there: where it was not fetched the block index has not moved, and the
    body leaves an input's buffer as it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether or not the
    pipeline fetched it there: where it was not fetched the block index has not moved, and the
    body leaves an input's buffer as it found it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether or not the
    pipeline fetched it there: where it was not fetched the block index has not moved, and the
    body leaves an input's buffer as it found it. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store go through the whole block -/

abbrev r1_0 : Rect S1024x384 := Rect.unit (s := S1024x384) ![0, 0] S1024x384.size inb_S1024x384_S1024x384_0_0
abbrev r1_1 : Rect S1x384 := Rect.unit (s := S1x384) ![0, 0] S1x384.size inb_S1x384_S1x384_0_0
abbrev r1_2 : Rect S10x384 := Rect.unit (s := S10x384) ![0, 0] S10x384.size inb_S10x384_S10x384_0_0
abbrev r1_3 : Rect S1024x10 := Rect.unit (s := S1024x10) ![0, 0] S1024x10.size inb_S1024x10_S1024x10_0_0

/-! ## What the body leaves in the output window's buffer -/

/-- Window 6's staging buffer after the body, from the six input blocks: one store of the whole
    block. The stored value is the product of the normalised, clamped and sign-rounded activation
    block (from windows 0, 4, 3, 1, 2: the activations, the variance, the mean, the scale, the
    shift) with the transposed sign-rounded weight block (window 5). -/
def out1_6 (x0 : Vec F S1024x384 .f32) (x1 : Vec F S1x384 .f32) (x2 : Vec F S1x384 .f32) (x3 : Vec F S1x384 .f32) (x4 : Vec F S1x384 .f32) (x5 : Vec F S10x384 .f32) : Vec F S1024x10 .f32 :=
  View.canon [⟨r1_3, k1_pay1 (k1_pay2 (View.ld x0 r1_0) (View.ld x4 r1_1) (View.ld x3 r1_1) (View.ld x1 r1_1) (View.ld x2 r1_1)) (View.ld x5 r1_2) (k1_pay3 (View.ld x5 r1_2)) (k1_pay4 (View.ld x5 r1_2)) (Scalar.ofBits .f32 0x00000000#32)⟩]

/-- The one store tiles the buffer, so it covers it. -/
theorem cover1_6 (p0 : Vec F S1024x10 .f32) (y : S1024x10.Idx) :
    ∃ pc ∈ ([⟨r1_3, p0⟩] : List (View.Piece (Elt F) S1024x10 .f32)), y ∈ pc.1.set :=
  View.cover_of_tiled [⟨r1_3, p0⟩] S1024x10.size (by rfl) y

/-! ## The body's triple -/

set_option maxHeartbeats 1000000 in
/-- The kernel body on whole staging memrefs, the inputs' at contents `xW` and the output's at
    anything, runs to the continuation holding the inputs' as they were and the output's at
    `out1_6` of the inputs'. -/
theorem sound_kernel1 (c : Dev nD) (E : Set ℕ) (i : grid1.Coords) (arg1 : Memref sig .tc .vmem S1024x384 .f32) (harg1 : arg1.IsWhole) (arg2 : Memref sig .tc .vmem S1x384 .f32) (harg2 : arg2.IsWhole) (arg3 : Memref sig .tc .vmem S1x384 .f32) (harg3 : arg3.IsWhole) (arg4 : Memref sig .tc .vmem S1x384 .f32) (harg4 : arg4.IsWhole) (arg5 : Memref sig .tc .vmem S1x384 .f32) (harg5 : arg5.IsWhole) (arg6 : Memref sig .tc .vmem S10x384 .f32) (harg6 : arg6.IsWhole) (arg7 : Memref sig .tc .vmem S1024x10 .f32) (harg7 : arg7.IsWhole)
    (x0 : Vec F S1024x384 .f32) (x1 : Vec F S1x384 .f32) (x2 : Vec F S1x384 .f32) (x3 : Vec F S1x384 .f32) (x4 : Vec F S1x384 .f32) (x5 : Vec F S10x384 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__matmul2_kernel i arg1 harg1 arg2 harg2 arg3 harg3 arg4 harg4 arg5 harg5 arg6 harg6 arg7 harg7) K := by
  simp only [cc1__matmul2_kernel_eq_skeleton]; unfold cc1__matmul2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of the second pipeline on core `c`: the arrays as the region finds them; after
    the body at point `t` each input's buffer at its block and the output's at `out1_6` of the six
    input blocks; the invariant is that the scoped rest and the generator register are untouched;
    nothing is owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so `sound_kernel1` applies; the
    invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
import proofs.«149079_j33569464385811_1_alg».proof.Proof.Region0
import proofs.«149079_j33569464385811_1_alg».proof.Proof.Region1
import proofs.«149079_j33569464385811_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: region 0, three stretches of host operations, region 1

## The buffer contents at each boundary: a fold through the program -/

/-- Core `c`'s buffers at launch (region 0's entry). -/
abbrev W0 : Dev nD → Valuation τ sig (Elt F) := fun c b => m (c, b)
/-- The same read at the TensorCore's references. -/
abbrev V0r : (c : Dev nD) → (b : Ref sig .tc) → Buf (Elt F) ((c : Thread nD τ).loc b) := fun c b => W0 m c b
/-- At region 0's exit: its arrays at what its write-backs leave, every other buffer as entered. -/
def W1 (c : Dev nD) : Valuation τ sig (Elt F) :=
  Pipeline.withArrays spec0 c (W0 m c) fun w => (dat0 (V0r m) c).arrAt w cfg0.N
theorem W1_arr (c : Dev nD) (w : Fin cfg0.W) :
    W1 m c (Proc.devRef .tc (Pipeline.arrRef spec0 w)) = (dat0 (V0r m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1r : (c : Dev nD) → (b : Ref sig .tc) → Buf (Elt F) ((c : Thread nD τ).loc b) := fun c b => W1 m c b
theorem hF0 (c : Dev nD) (w : Fin cfg0.W) : (dat0 (V0r m) c).arrAt w cfg0.N = V1r m c (Pipeline.arrRef spec0 w) :=
  (W1_arr m c w).symm
theorem hrest0 (c : Dev nD) : ∀ b, b ∉ Finset.univ.image (Pipeline.arrRef spec0) → V1r m c b = V0r m c b :=
  fun b hb => W1_of_ne m c b fun w e => hb (Finset.mem_image.mpr ⟨w, Finset.mem_univ _, e⟩)

/-- After the three stretches of host operations (region 1's entry). -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev V4r : (c : Dev nD) → (b : Ref sig .tc) → Buf (Elt F) ((c : Thread nD τ).loc b) := fun c b => W4 m c b
/-- At region 1's exit. -/
def W5 (c : Dev nD) : Valuation τ sig (Elt F) :=
  Pipeline.withArrays spec1 c (W4 m c) fun w => (dat1 (V4r m) c).arrAt w cfg1.N
theorem W5_arr (c : Dev nD) (w : Fin cfg1.W) :
    W5 m c (Proc.devRef .tc (Pipeline.arrRef spec1 w)) = (dat1 (V4r m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5r : (c : Dev nD) → (b : Ref sig .tc) → Buf (Elt F) ((c : Thread nD τ).loc b) := fun c b => W5 m c b
theorem hF1 (c : Dev nD) (w : Fin cfg1.W) : (dat1 (V4r m) c).arrAt w cfg1.N = V5r m c (Pipeline.arrRef spec1 w) :=
  (W5_arr m c w).symm
theorem hrest1 (c : Dev nD) : ∀ b, b ∉ Finset.univ.image (Pipeline.arrRef spec1) → V5r m c b = V4r m c b :=
  fun b hb => W5_of_ne m c b fun w e => hb (Finset.mem_image.mpr ⟨w, Finset.mem_univ _, e⟩)

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V0r m) c
  | ⟨1, _⟩ => fun c => dat1 (V4r m) c
abbrev 𝒱₀ : Variants := Variants.none
abbrev L0 : GSem nD τ sig → Finset Unit := fun _ => ∅
abbrev lv0 : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at `W0`, left at `W1`. -/
def reg0 : Pipeline.RegionSeg (pcfgs (F := F)) adm' (pdats m) () defs₀ 𝒱₀ L0 lv0 0 where
  win := launch0.win.to₀
  block_pos := launch0.block_pos
  stage_whole := launch0.stage_whole
  K := PEmpty
  osem k := k.elim
  ho := Pipeline.OwnSemFacts.none _
  hbody c := (body_obligation0 (V0r m) c).loose
  hwaits := Pipeline.hwaits_of_owed_zero _ _ _ _ L0 lv0 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0r m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (V0r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (V0r m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (V0r m c) (V1r m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W4`, left at `W5`. -/
def reg1 : Pipeline.RegionSeg (pcfgs (F := F)) adm' (pdats m) () defs₀ 𝒱₀ L0 lv0 1 where
  win := launch1.win.to₀
  block_pos := launch1.block_pos
  stage_whole := launch1.stage_whole
  K := PEmpty
  osem k := k.elim
  ho := Pipeline.OwnSemFacts.none _
  hbody c := (body_obligation1 (V4r m) c).loose
  hwaits := Pipeline.hwaits_of_owed_zero _ _ _ _ L0 lv0 1 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4r m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (V4r m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (V4r m c) (V5r m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm' (pdats m) () defs₀ 𝒱₀ L0 lv0) :=
  [ .region (reg0 m),
    .host (hseg hostOps1 hostOps1_sub hostOps1_fresh (W1 m)),
    .host (hseg hostOps1_1 hostOps1_1_sub hostOps1_1_fresh (W2 m)),
    .host (hseg hostOps1_2 hostOps1_2_sub hostOps1_2_fresh (W3 m)),
    .region (reg1 m) ]

set_option backward.isDefEq.respectTransparency.types false in
/-- THE RUN: from any memory with zero counters every weakly fair execution of the program terminates, nothing
    faulting, and every final state holds every unscoped buffer of every core at the last boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm' (pdats m) () cellOf_inj emb₁ defs₀ 𝒱₀ L0 lv0 m ρ main (segs m)
    (fun c Q => by
      rewrite [main_chain c, Pipeline.Seg.run_eq_chain,
        show (segs m).map Pipeline.Seg.prog = [
          Prog.lift (.customCall (Pipeline.entry 0) ()),
          StableHlo.seq hostOps1,
          StableHlo.seq hostOps1_1,
          StableHlo.seq hostOps1_2,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L0 lv0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Hand
end
-- ==== Proof.Frame.lean ====
import proofs.«149079_j33569464385811_1_alg».proof.Proof.Run

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-! # The argument arrays end as launched

No stretch of host operations writes an argument, region 0 only reads `main_arg0` and `main_arg1` (input windows),
region 1 only reads `main_arg4`; so the fold of boundary contents at an argument walks back to the launch memory. -/

/-- A buffer no host operation between the regions writes is the same before and after them. -/
theorem W4_of (c : Dev nD) (b : Ref sig .tc) (h1 : b ∉ hostOps1_W) (h2 : b ∉ hostOps1_1_W) (h3 : b ∉ hostOps1_2_W) :
    W4 m c (Proc.devRef .tc b) = W1 m c (Proc.devRef .tc b) :=
  (StableHlo.after_of_writes_sub hostOps1_2 _ hostOps1_2_writes h3).trans <|
    (StableHlo.after_of_writes_sub hostOps1_1 _ hostOps1_1_writes h2).trans <|
      StableHlo.after_of_writes_sub hostOps1 _ hostOps1_writes h1

theorem W5_main_arg0 (c : Dev nD) : W5 m c (Proc.devRef .tc main_arg0) = m ((c : Thread nD τ).loc main_arg0) :=
  (W5_of_ne m c main_arg0 (by decide)).trans <| (W4_of m c main_arg0 (by decide) (by decide) (by decide)).trans <|
    (W1_arr m c 0).trans (((dat0 (V0r m) c).arrAt_in 0 rfl _).trans (A_eq0 (V0r m) c 0))
theorem W5_main_arg1 (c : Dev nD) : W5 m c (Proc.devRef .tc main_arg1) = m ((c : Thread nD τ).loc main_arg1) :=
  (W5_of_ne m c main_arg1 (by decide)).trans <| (W4_of m c main_arg1 (by decide) (by decide) (by decide)).trans <|
    (W1_arr m c 1).trans (((dat0 (V0r m) c).arrAt_in 1 rfl _).trans (A_eq0 (V0r m) c 1))
theorem W5_main_arg2 (c : Dev nD) : W5 m c (Proc.devRef .tc main_arg2) = m ((c : Thread nD τ).loc main_arg2) :=
  (W5_of_ne m c main_arg2 (by decide)).trans <| (W4_of m c main_arg2 (by decide) (by decide) (by decide)).trans <|
    W1_of_ne m c main_arg2 (by decide)
theorem W5_main_arg3 (c : Dev nD) : W5 m c (Proc.devRef .tc main_arg3) = m ((c : Thread nD τ).loc main_arg3) :=
  (W5_of_ne m c main_arg3 (by decide)).trans <| (W4_of m c main_arg3 (by decide) (by decide) (by decide)).trans <|
    W1_of_ne m c main_arg3 (by decide)
theorem W5_main_arg4 (c : Dev nD) : W5 m c (Proc.devRef .tc main_arg4) = m ((c : Thread nD τ).loc main_arg4) :=
  (W5_arr m c 5).trans <| ((dat1 (V4r m) c).arrAt_in 5 rfl _).trans <| (A_eq1 (V4r m) c 5).trans <|
    (W4_of m c main_arg4 (by decide) (by decide) (by decide)).trans <| W1_of_ne m c main_arg4 (by decide)

/-- THE RUN, read at the result and the arguments: the result array at the last boundary's contents, every argument as launched. -/
theorem run_result : θ_run defs (onTc (τ := τ) (main (F := F))) ⟨m, fun _ => 0, ρ⟩ (fun r => ∀ c : Dev nD,
      r.2.mem ((c.tc : Thread nD τ).loc main_v8) = W5 m c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v8 (by decide)),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_result m ρ)

end Cert.KernelIdeal.Hand
end
-- ==== Proof.Spec.lean ====
/-
  The function both programs compute, on the extended reals, index by index.

  Inputs: x [8192,16384], w1 [384,16384], gamma [384], beta [384], w4 [10,384].
    h(i,j)    = sum over k of sign(x(i,k)) * sign(w1(j,k))                    (a product of sign matrices)
    mean(j)   = (0 + sum over i of h(i,j)) / 8192
    var(j)    = (0 + sum over i of (h(i,j) - mean(j))^2) / 8192               (the biased variance over the batch)
    y(i,j)    = min 1 (max (-1) ((h(i,j) - mean(j)) * rsqrt(var(j) + eps) * gamma(j) + beta(j)))
    out(i,o)  = sum over j of sign(y(i,j)) * sign(w4(o,j))
  with sign the three-valued sign (-1 at -inf, 1 at +inf), eps the f32 nearest 1e-5 (kept as its word).
-/
import Idealize.ShloMosaic.PureOps.Ideal
import Idealize.ShloMosaic.Lib.ValueIdx

noncomputable section

namespace Cert.Spec

open Idealize.ShloMosaic Idealize.ShloMosaic.ValueIdx

/-- A matrix of extended reals by row and column. -/
abbrev Mat (a b : Nat) : Type := Fin a → Fin b → EReal

/-- A rank-2 array read by row and column. -/
def mat {a b : Nat} (v : (⟨2, ![a, b]⟩ : Shape).Idx → EReal) : Mat a b := fun i j => v (ix2 i j)

/-- A rank-1 array read by position. -/
def vec {a : Nat} (v : (⟨1, ![a]⟩ : Shape).Idx → EReal) : Fin a → EReal := fun j => v (ix1 j)

/-- The f32 word nearest 1e-5, as the extended real it denotes. -/
def eps : EReal := Ideal.ofBits .f32 0x3727C5AC#32

/-- The product of the sign matrices: h = sign(x) · sign(w)ᵀ over the K shared columns. -/
def hmat {B K H : Nat} (x : Mat B K) (w : Mat H K) : Mat B H :=
  fun i j => ∑ k : Fin K, Ideal.sign (x i k) * Ideal.sign (w j k)

/-- The column mean over the B rows, as the programs spell it: the sum from 0, divided by n. -/
def mean {B H : Nat} (n : EReal) (h : Mat B H) (j : Fin H) : EReal := Ideal.div (0 + ∑ i : Fin B, h i j) n

/-- The biased column variance: the mean of the squared deviations. -/
def var {B H : Nat} (n : EReal) (h : Mat B H) (j : Fin H) : EReal :=
  Ideal.div (0 + ∑ i : Fin B, (h i j - mean n h j) * (h i j - mean n h j)) n

/-- Batch normalization with scale and shift, clipped to [-1, 1]. -/
def bn {B H : Nat} (n : EReal) (h : Mat B H) (g b : Fin H → EReal) : Mat B H :=
  fun i j => min 1 (max (-1) ((h i j - mean n h j) * Ideal.rsqrt (var n h j + eps) * g j + b j))

/-- The second product of sign matrices. -/
def out {B H O : Nat} (n : EReal) (h : Mat B H) (g b : Fin H → EReal) (w4 : Mat O H) : Mat B O :=
  fun i o => ∑ j : Fin H, Ideal.sign (bn n h g b i j) * Ideal.sign (w4 o j)

/-- The whole function, at the programs' extents (the batch size 8192 the divisor). -/
def G (x : Mat 8192 16384) (w1 : Mat 384 16384) (g b : Fin 384 → EReal) (w4 : Mat 10 384) : Mat 8192 10 :=
  out 8192 (hmat x w1) g b w4

end Cert.Spec

end
-- ==== Proof.Final0.lean ====
import proofs.«149079_j33569464385811_1_alg».proof.Proof.Region0
import proofs.«149079_j33569464385811_1_alg».proof.Proof.Spec
import Idealize.ShloMosaic.Lib.Pipeline.Value
import Idealize.ShloMosaic.Lib.ValueIdx

set_option maxRecDepth 16384

noncomputable section

namespace Cert.KSide

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! # Region 0's result array, index by index

The output block of row block `r` is written back once, after the last column block (point `8 r + 7`), when the
accumulator holds the whole product over the 16384 columns; the four blocks tile the array. -/

/-- The product of the sign matrices as one array. -/
def Harr (x : S8192x16384.Idx → EReal) (w : S384x16384.Idx → EReal) : S8192x384.Idx → EReal :=
  fun i => Cert.Spec.hmat (Cert.Spec.mat x) (Cert.Spec.mat w) (i 0) (i 1)

/-- The output window's index map over the grid: the row block, column block 0. -/
theorem idx_out0 : ∀ t : Fin cfg0.N, win0_2.index t (0 : Fin 2) = t.val / 8 ∧ win0_2.index t (1 : Fin 2) = 0 :=
  (by decide +kernel : ∀ t : Fin grid0.N, _)

/-- An index of the array is in point `t`'s block iff each coordinate is in the block's range on its axis. -/
theorem mem_blk0 (t : Fin cfg0.N) (i : S8192x384.Idx) :
    i ∈ ((cfg0.win 2).blk t).view.set ↔ ∀ a : Fin 2, win0_2.index t a * S2048x384.size a ≤ (i a).val ∧ (i a).val < win0_2.index t a * S2048x384.size a + S2048x384.size a := by
  show i ∈ ((View.whole main_v0).slice (win0_2.rect t)).set ↔ _
  rw [View.set_slice_whole, Rect.mem_set_unit]
  exact Iff.rfl

/-- THE ARRAY after region 0, given the accumulator's closed form at the last column block of each row block. -/
theorem final0 (c : Dev nD)
    (hacc : ∀ (t : Fin cfg0.N), t.val % 8 = 7 → ∀ (p : Fin 2048) (q : Fin 384) (hb : 2048 * (t.val / 8) + p.val < 8192),
      acc0 V c t.val t.isLt (ix2 p q)
        = Cert.Spec.hmat (Cert.Spec.mat (V c main_arg0)) (Cert.Spec.mat (V c main_arg1)) ⟨2048 * (t.val / 8) + p.val, hb⟩ q) :
    (dat0 V c).arrAt 2 cfg0.N = Harr (V c main_arg0) (V c main_arg1) := by
  refine (dat0 V c).arrAt_eq_of_cover 2 _ (fun t hf => ?_) (fun i => ?_)
  · have h7 : t.val % 8 = 7 := (flush0_2 t).mp hf
    have ht : t.val < 32 := lt_of_lt_of_eq t.isLt N_0
    obtain ⟨e0, e1⟩ := idx_out0 t
    show (cfg0.win 2).cut (grid0.coords t) ((dat0 V c).after 2 t) = _
    rw [after0_2]
    funext y
    obtain ⟨p, q, rfl⟩ : ∃ (p : Fin 2048) (q : Fin 384), y = ix2 p q := ⟨y 0, y 1, eq_ix2 y⟩
    have hb : 2048 * (t.val / 8) + p.val < 8192 := by have := p.isLt; omega
    refine (hacc t h7 p q hb).trans ?_
    rw [View.read_apply]
    unfold Harr
    congr 1 <;> apply Fin.ext
    · show 2048 * (t.val / 8) + p.val = win0_2.index t (0 : Fin 2) * 2048 + 1 * p.val; omega
    · show q.val = win0_2.index t (1 : Fin 2) * 384 + 1 * q.val; omega
  · have hi0 : (i 0).val < 8192 := (i 0).isLt
    have hi1 : (i 1).val < 384 := (i 1).isLt
    have hN : cfg0.N = 32 := N_0
    refine ⟨⟨8 * ((i 0).val / 2048) + 7, by omega⟩, (flush0_2 _).mpr (by dsimp only; omega), ?_⟩
    rw [mem_blk0]
    obtain ⟨e0, e1⟩ := idx_out0 ⟨8 * ((i 0).val / 2048) + 7, by omega⟩
    intro a
    match a with
    | ⟨0, _⟩ => show win0_2.index _ (0 : Fin 2) * 2048 ≤ (i 0).val ∧ (i 0).val < win0_2.index _ (0 : Fin 2) * 2048 + 2048; rw [e0]; dsimp only; omega
    | ⟨1, _⟩ => show win0_2.index _ (1 : Fin 2) * 384 ≤ (i 1).val ∧ (i 1).val < win0_2.index _ (1 : Fin 2) * 384 + 384; rw [e1]; omega

end Cert.KSide
end
-- ==== Proof.Words.lean ====
/-
  The four float words the reference program spells, as the extended reals they denote:
  +0.0 is 0, 1.0 is 1, -1.0 is -1, and 8192.0 is 8192 (the batch size, the divisor of the two means).
  Each pattern is unfolded once, here, and read elsewhere by these equations.
-/
import Idealize.ShloMosaic.PureOps.Ideal

noncomputable section

namespace Cert.Words

open Idealize.ShloMosaic

/-- The word of +0.0 denotes 0. -/
theorem ofBits_zero : Ideal.ofBits .f32 0x00000000#32 = 0 := by
  simp [Ideal.ofBits, Ideal.ieee]

/-- The word of 1.0 denotes 1. -/
theorem ofBits_one : Ideal.ofBits .f32 0x3F800000#32 = 1 := by
  simp [Ideal.ofBits, Ideal.ieee, -EReal.coe_mul]; norm_num

/-- The word of -1.0 denotes -1. -/
theorem ofBits_neg_one : Ideal.ofBits .f32 0xBF800000#32 = -1 := by
  simp [Ideal.ofBits, Ideal.ieee, -EReal.coe_mul]; norm_num

/-- The word of 8192.0 denotes 8192. -/
theorem ofBits_8192 : Ideal.ofBits .f32 0x46000000#32 = 8192 := by
  have h : Ideal.ofBits .f32 0x46000000#32 = ((8192 : ℝ) : EReal) := by
    simp [Ideal.ofBits, Ideal.ieee, -EReal.coe_mul]; norm_num
  rw [h]; rfl

end Cert.Words

end
-- ==== Proof.KValue1.lean ====
/-
  The second region's output block, read index by index on the extended reals.

  A point of the second region holds a block of 1024 rows of the first product h, the four rows γ, β, mean and
  variance, and the weights W4. Its body normalizes, scales, shifts and clips the block, takes signs of the result
  and of W4, and multiplies the first by the transpose of the second. The kernel spells a sign as
  "where |v| > 0, ±1 by v < 0, else v", which is the three-valued sign at every extended real; a change of float
  format is the identity here; so the block's entry (p, o) is the sum over the 384 columns j of
  sign(clip((h(p,j) - mean(j)) · rsqrt(var(j) + eps) · γ(j) + β(j))) · sign(W4(o,j)).
-/
import proofs.«149079_j33569464385811_1_alg».proof.Proof.Region1
import proofs.«149079_j33569464385811_1_alg».proof.Proof.Spec
import proofs.«149079_j33569464385811_1_alg».proof.Proof.Words
import Idealize.ShloMosaic.Lib.ValueIdx
import Idealize.ShloMosaic.Lib.Pipeline.Value
import Idealize.ShloMosaic.Lib.ValueLayout
import Idealize.ShloMosaic.PureOps.Ideal.Laws

noncomputable section

namespace Cert.KSide

open Idealize.ShloMosaic Idealize.ShloMosaic.ValueIdx Cert.KernelIdeal Cert.KernelIdeal.Gen

/-- The kernel's spelling of a sign, over a whole vector: the three-valued sign of each entry. -/
theorem sign_vec {s : Shape} (x : FVec Ideal s .f32) :
    select (cmpf .ogt (absf x) (broadcast s (Scalar.ofBits .f32 0x00000000#32)))
        (select (cmpf .olt x (constant s .f32 0x00000000#32)) (constant s .f32 0xBF800000#32)
          (constant s .f32 0x3F800000#32)) x
      = fun i => Ideal.sign (x i) :=
  funext fun i => Ideal.jnp_sign_eq_sign_f32 (x i)

/-- A scalar constant on the extended reals is what its word denotes. -/
theorem scalar_ofBits (b : BitVec 32) : Scalar.ofBits (F := Ideal) .f32 b = Ideal.ofBits .f32 b := rfl

/-- The binarized activation block at (p, j): the sign of the clipped, normalized, scaled and shifted entry. -/
theorem act_apply (v0 : Vec Ideal S1024x384 .f32) (v2 v7 v13 v17 : Vec Ideal S1x384 .f32) (p : Fin 1024) (j : Fin 384) :
    k1_pay2 (F := Ideal) v0 v2 v7 v13 v17 (ix2 p j)
      = Ideal.sign (min 1 (max (-1) ((v0 (ix2 p j) - v7 (ix2 0 j)) * Ideal.rsqrt (v2 (ix2 0 j) + Cert.Spec.eps)
          * v13 (ix2 0 j) + v17 (ix2 0 j)))) := by
  unfold k1_pay2
  simp only [shapeCast_self]
  rw [sign_vec, truncf_apply]
  simp only [minimumf_apply, maximumf_apply, addf_apply, mulf_apply, subf_apply, broadcast_apply,
    broadcastTo_1b_ab_apply, scalar_ofBits, Cert.Words.ofBits_one, Cert.Words.ofBits_neg_one]
  rfl

/-- The left operand's row coordinate in the product is the output's row. -/
theorem lhs_row (i : S1024x10.Idx) (q : dot_S1024x384_S384x10_S1024x10_1_0_0_1_n_n.contr.Idx) :
    (dot_S1024x384_S384x10_S1024x10_1_0_0_1_n_n.lhsIdx i q 0).val = (i 0).val := by
  unfold DotDims.lhsIdx
  rw [dif_neg (show ¬(0 : Fin S1024x384.rank) ∈ dot_S1024x384_S384x10_S1024x10_1_0_0_1_n_n.lhsBatch by decide),
    dif_pos (show (0 : Fin S1024x384.rank) ∈ dot_S1024x384_S384x10_S1024x10_1_0_0_1_n_n.lhsNonContracting by decide)]
  rfl

/-- The right operand's column coordinate in the product is the output's column. -/
theorem rhs_col (i : S1024x10.Idx) (q : dot_S1024x384_S384x10_S1024x10_1_0_0_1_n_n.contr.Idx) :
    (dot_S1024x384_S384x10_S1024x10_1_0_0_1_n_n.rhsIdx i q 1).val = (i 1).val := by
  unfold DotDims.rhsIdx
  rw [dif_neg (show ¬(1 : Fin S384x10.rank) ∈ dot_S1024x384_S384x10_S1024x10_1_0_0_1_n_n.rhsBatch by decide),
    dif_pos (show (1 : Fin S384x10.rank) ∈ dot_S1024x384_S384x10_S1024x10_1_0_0_1_n_n.rhsNonContracting by decide)]
  rfl

/-- The product into the zero accumulator at (p, o): the sum over the 384 shared columns of the left operand's
    entry times the sign of W4's. -/
theorem prod2_apply (a : FVec Ideal S1024x384 .bf16) (w : Vec Ideal S10x384 .f32) (p : Fin 1024) (o : Fin 10) :
    k1_pay1 (F := Ideal) a w (k1_pay3 w) (k1_pay4 w) (Scalar.ofBits .f32 0x00000000#32) (ix2 p o)
      = ∑ j : Fin 384, a (ix2 p j) * Ideal.sign (w (ix2 o j)) := by
  unfold k1_pay1 k1_pay3 k1_pay4
  dsimp only
  rw [sign_vec]
  generalize hb : (transpose S384x10 [1, 0] (truncf .bf16 (fun i => Ideal.sign (w i)) _) _ : FVec Ideal S384x10 .bf16) = b
  refine (Ideal.matmul_constant_zero_apply dot_S1024x384_S384x10_S1024x10_1_0_0_1_n_n none a b (ix2 p o)).trans ?_
  rw [← Equiv.sum_comp (contrEquiv1 dot_S1024x384_S384x10_S1024x10_1_0_0_1_n_n 384 rfl rfl).symm]
  refine Finset.sum_congr rfl fun k _ => ?_
  have hk := contrEquiv1_symm_val dot_S1024x384_S384x10_S1024x10_1_0_0_1_n_n 384 rfl rfl k
  have el : dot_S1024x384_S384x10_S1024x10_1_0_0_1_n_n.lhsIdx (ix2 p o)
      ((contrEquiv1 dot_S1024x384_S384x10_S1024x10_1_0_0_1_n_n 384 rfl rfl).symm k) = ix2 p k :=
    funext fun c => Fin.ext (by
      match c with
      | ⟨0, _⟩ => exact lhs_row _ _
      | ⟨1, _⟩ => exact (dot_S1024x384_S384x10_S1024x10_1_0_0_1_n_n.lhsIdx_val_of_single rfl _ _).trans hk)
  have er : dot_S1024x384_S384x10_S1024x10_1_0_0_1_n_n.rhsIdx (ix2 p o)
      ((contrEquiv1 dot_S1024x384_S384x10_S1024x10_1_0_0_1_n_n 384 rfl rfl).symm k) = ix2 k o :=
    funext fun c => Fin.ext (by
      match c with
      | ⟨0, _⟩ => exact (dot_S1024x384_S384x10_S1024x10_1_0_0_1_n_n.rhsIdx_val_of_single rfl _ _).trans hk
      | ⟨1, _⟩ => exact rhs_col _ _)
  rw [el, er, ← hb, transpose_ix2_apply]
  rfl

/-- The output block of the second region at (p, o). -/
theorem out1_6_apply (x0 : Vec Ideal S1024x384 .f32) (x1 x2 x3 x4 : Vec Ideal S1x384 .f32) (x5 : Vec Ideal S10x384 .f32)
    (p : Fin 1024) (o : Fin 10) :
    Cert.KernelIdeal.Hand.out1_6 (F := Ideal) x0 x1 x2 x3 x4 x5 (ix2 p o)
      = ∑ j : Fin 384, Ideal.sign (min 1 (max (-1) ((x0 (ix2 p j) - x3 (ix2 0 j)) * Ideal.rsqrt (x4 (ix2 0 j) + Cert.Spec.eps)
          * x1 (ix2 0 j) + x2 (ix2 0 j)))) * Ideal.sign (x5 (ix2 o j)) := by
  have hz : (![0, 0] : Fin 2 → ℕ) = fun _ => 0 := by
    funext c; match c with | ⟨0, _⟩ => rfl | ⟨1, _⟩ => rfl
  unfold Cert.KernelIdeal.Hand.out1_6
  rw [View.canon_unit_zero (S := S1024x10) hz]
  simp only [View.ld_unit_zero (S := S1024x384) hz, View.ld_unit_zero (S := S1x384) hz, View.ld_unit_zero (S := S10x384) hz]
  rw [prod2_apply]
  refine Finset.sum_congr rfl fun j _ => ?_
  rw [act_apply]

end Cert.KSide

end
-- ==== Proof.Final1.lean ====
import proofs.«149079_j33569464385811_1_alg».proof.Proof.Region1
import proofs.«149079_j33569464385811_1_alg».proof.Proof.KValue1
import Idealize.ShloMosaic.Lib.Pipeline.Value
import Idealize.ShloMosaic.Lib.ValueIdx

set_option maxRecDepth 16384

noncomputable section

namespace Cert.KSide

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-! # Region 1's result array, index by index

Point `t` of the 8 handles rows `1024 t … 1024 t + 1023`: its output block is the second product of sign matrices of
the normalized, clipped rows of `h` against `W4`; the eight blocks tile the result. -/

/-- The result as one function of the arrays region 1 finds: `h` (main_v0), the scale and shift rows, the mean and
    variance rows, and `W4`. -/
def Oarr (h : S8192x384.Idx → EReal) (g b mu va : S1x384.Idx → EReal) (w4 : S10x384.Idx → EReal) : S8192x10.Idx → EReal :=
  fun i => ∑ j : Fin 384, Ideal.sign (min 1 (max (-1) ((h (ix2 (i 0) j) - mu (ix2 0 j)) * Ideal.rsqrt (va (ix2 0 j) + Cert.Spec.eps) * g (ix2 0 j) + b (ix2 0 j)))) * Ideal.sign (w4 (ix2 (i 1) j))

/-- The printed index maps over the grid: the row-block windows move with the point, the others stay at block 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- WHAT POINT `t` WRITES BACK is block `t` of `Oarr`. -/
theorem flushed1_eq (c : Dev nD) (t : Fin cfg1.N) :
    (dat1 V c).flushed 6 t = ((cfg1.win 6).blk t).view.read (Elt Ideal)
      (Oarr (V c main_v0) (V c main_v6) (V c main_v7) (V c main_v4) (V c main_v5) (V c main_arg4)) := by
  show (cfg1.win 6).cut (grid1.coords t) ((dat1 V c).after 6 t) = _
  rw [after1_6]
  obtain ⟨e00, e01, e10, e11, e20, e21, e30, e31, e40, e41, e50, e51, e60, e61⟩ := idx_facts1 t
  have ht : t.val < 8 := lt_of_lt_of_eq t.isLt N_1
  funext y
  obtain ⟨p, o, rfl⟩ : ∃ (p : Fin 1024) (o : Fin 10), y = ix2 p o := ⟨y 0, y 1, eq_ix2 y⟩
  refine (out1_6_apply _ _ _ _ _ _ p o).trans ?_
  show _ = Oarr (V c main_v0) (V c main_v6) (V c main_v7) (V c main_v4) (V c main_v5) (V c main_arg4) (((cfg1.win 6).blk t).view.emb (ix2 p o))
  unfold Oarr
  refine Finset.sum_congr rfl fun j _ => ?_
  have h0 : iblk1 V c 0 t (ix2 p j) = V c main_v0 (ix2 ((((cfg1.win 6).blk t).view.emb (ix2 p o)) 0) j) := by
    show V c main_v0 (((cfg1.win 0).blk t).view.emb (ix2 p j)) = _
    congr 1; funext a; apply Fin.ext
    match a with
    | ⟨0, _⟩ => show win1_0.index t (0 : Fin 2) * 1024 + 1 * p.val = win1_6.index t (0 : Fin 2) * 1024 + 1 * p.val; omega
    | ⟨1, _⟩ => show win1_0.index t (1 : Fin 2) * 384 + 1 * j.val = j.val; omega
  have h1 : iblk1 V c 1 t (ix2 0 j) = V c main_v6 (ix2 0 j) := by
    show V c main_v6 (((cfg1.win 1).blk t).view.emb (ix2 0 j)) = _
    congr 1; funext a; apply Fin.ext
    match a with
    | ⟨0, _⟩ => show win1_1.index t (0 : Fin 2) * 1 + 1 * 0 = 0; omega
    | ⟨1, _⟩ => show win1_1.index t (1 : Fin 2) * 384 + 1 * j.val = j.val; omega
  have h2 : iblk1 V c 2 t (ix2 0 j) = V c main_v7 (ix2 0 j) := by
    show V c main_v7 (((cfg1.win 2).blk t).view.emb (ix2 0 j)) = _
    congr 1; funext a; apply Fin.ext
    match a with
    | ⟨0, _⟩ => show win1_2.index t (0 : Fin 2) * 1 + 1 * 0 = 0; omega
    | ⟨1, _⟩ => show win1_2.index t (1 : Fin 2) * 384 + 1 * j.val = j.val; omega
  have h3 : iblk1 V c 3 t (ix2 0 j) = V c main_v4 (ix2 0 j) := by
    show V c main_v4 (((cfg1.win 3).blk t).view.emb (ix2 0 j)) = _
    congr 1; funext a; apply Fin.ext
    match a with
    | ⟨0, _⟩ => show win1_3.index t (0 : Fin 2) * 1 + 1 * 0 = 0; omega
    | ⟨1, _⟩ => show win1_3.index t (1 : Fin 2) * 384 + 1 * j.val = j.val; omega
  have h4 : iblk1 V c 4 t (ix2 0 j) = V c main_v5 (ix2 0 j) := by
    show V c main_v5 (((cfg1.win 4).blk t).view.emb (ix2 0 j)) = _
    congr 1; funext a; apply Fin.ext
    match a with
    | ⟨0, _⟩ => show win1_4.index t (0 : Fin 2) * 1 + 1 * 0 = 0; omega
    | ⟨1, _⟩ => show win1_4.index t (1 : Fin 2) * 384 + 1 * j.val = j.val; omega
  have h5 : iblk1 V c 5 t (ix2 o j) = V c main_arg4 (ix2 ((((cfg1.win 6).blk t).view.emb (ix2 p o)) 1) j) := by
    show V c main_arg4 (((cfg1.win 5).blk t).view.emb (ix2 o j)) = _
    congr 1; funext a; apply Fin.ext
    match a with
    | ⟨0, _⟩ => show win1_5.index t (0 : Fin 2) * 10 + 1 * o.val = win1_6.index t (1 : Fin 2) * 10 + 1 * o.val; omega
    | ⟨1, _⟩ => show win1_5.index t (1 : Fin 2) * 384 + 1 * j.val = j.val; omega
  rw [h0, h1, h2, h3, h4, h5]

/-- An index of the result is in point `t`'s block iff each coordinate is in the block's range on its axis. -/
theorem mem_blk1 (t : Fin cfg1.N) (i : S8192x10.Idx) :
    i ∈ ((cfg1.win 6).blk t).view.set ↔ ∀ a : Fin 2, win1_6.index t a * S1024x10.size a ≤ (i a).val ∧ (i a).val < win1_6.index t a * S1024x10.size a + S1024x10.size a := by
  show i ∈ ((View.whole main_v8).slice (win1_6.rect t)).set ↔ _
  rw [View.set_slice_whole, Rect.mem_set_unit]
  exact Iff.rfl

/-- Every index of the result lies in the block of the point of its row block. -/
theorem cover1 (i : S8192x10.Idx) : ∃ t : Fin cfg1.N, (cfg1.win 6).flush t = true ∧ i ∈ ((cfg1.win 6).blk t).view.set := by
  have hi0 : (i 0).val < 8192 := (i 0).isLt
  have hi1 : (i 1).val < 10 := (i 1).isLt
  refine ⟨⟨(i 0).val / 1024, by rw [show cfg1.N = 8 from N_1]; omega⟩, flush1_6 _, ?_⟩
  rw [mem_blk1]
  obtain ⟨-, -, -, -, -, -, -, -, -, -, -, -, e60, e61⟩ := idx_facts1 ⟨(i 0).val / 1024, by rw [show cfg1.N = 8 from N_1]; omega⟩
  intro a
  match a with
  | ⟨0, _⟩ => show win1_6.index _ (0 : Fin 2) * 1024 ≤ (i 0).val ∧ (i 0).val < win1_6.index _ (0 : Fin 2) * 1024 + 1024; rw [e60]; dsimp only; omega
  | ⟨1, _⟩ => show win1_6.index _ (1 : Fin 2) * 10 ≤ (i 1).val ∧ (i 1).val < win1_6.index _ (1 : Fin 2) * 10 + 10; rw [e61]; omega

/-- THE RESULT ARRAY after region 1. -/
theorem final1 (c : Dev nD) : (dat1 V c).arrAt 6 cfg1.N
    = Oarr (V c main_v0) (V c main_v6) (V c main_v7) (V c main_v4) (V c main_v5) (V c main_arg4) :=
  (dat1 V c).arrAt_eq_of_cover 6 _ (fun t _ => flushed1_eq V c t) cover1

end Cert.KSide
end
-- ==== Proof.KValue0.lean ====
/-
  The first region's accumulator in closed form, on the extended reals.

  The first pallas_call walks a grid of 4 row blocks by 8 column blocks; point t is row block t / 8 and column
  block t % 8. At each point it is handed a 2048 × 2048 block of x and the 384 × 2048 block of w1 over the same
  columns, and adds to a 2048 × 384 accumulator the product of the two blocks' sign matrices, entry (p, q) gaining
  the sum over the block's columns k of sign x(p, k) · sign w1(q, k); the accumulator restarts from zero at the first
  column block of each row block.

  So after the last column block of row block r the accumulator's entry (p, q) is the sum over all 16384 columns of
  sign x(2048 r + p, k) · sign w1(q, k): entry (2048 r + p, q) of the product of the sign matrices. Only
  associativity of + and 0 + a = a on the extended reals are used; no entry needs to be finite.

  The kernel spells the sign of v as: v where |v| is not above 0, else -1 where v < 0 and 1 elsewhere. That is the
  three-valued sign at every extended real, the infinities included.
-/
import proofs.«149079_j33569464385811_1_alg».proof.Proof.Region0
import proofs.«149079_j33569464385811_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KSide

open Cert.KernelIdeal Cert.KernelIdeal.Gen Cert.KernelIdeal.Hand
open Idealize.ShloMosaic Idealize.ShloMosaic.TcCoe Idealize.ShloMosaic.ValueIdx

/-! ## One point of the accumulation -/

/-- The reset block is zero everywhere. -/
theorem pay1_apply (j : S2048x384.Idx) : k0_pay1 (F := Ideal) j = 0 := by
  unfold k0_pay1
  rw [shapeCast_self]
  exact Ideal.ofBits_zero_f32

/-- The contraction of the product at one point runs over the 2048 columns of the block. -/
abbrev D0 := dot_S2048x2048_S2048x384_S2048x384_1_0_0_1_n_n

theorem lhs0_0 (i : S2048x384.Idx) (k : D0.contr.Idx) : (D0.lhsIdx i k 0).val = (i 0).val := by
  unfold DotDims.lhsIdx
  rw [dif_neg (show ¬(0 : Fin S2048x2048.rank) ∈ D0.lhsBatch by decide), dif_pos (show (0 : Fin S2048x2048.rank) ∈ D0.lhsNonContracting by decide)]
  rfl
theorem lhs0_1 (i : S2048x384.Idx) (k : D0.contr.Idx) : (D0.lhsIdx i k 1).val = (k ⟨0, by decide⟩).val :=
  D0.lhsIdx_val_of_single rfl i k
theorem rhs0_0 (i : S2048x384.Idx) (k : D0.contr.Idx) : (D0.rhsIdx i k 0).val = (k ⟨0, by decide⟩).val :=
  D0.rhsIdx_val_of_single rfl i k
theorem rhs0_1 (i : S2048x384.Idx) (k : D0.contr.Idx) : (D0.rhsIdx i k 1).val = (i 1).val := by
  unfold DotDims.rhsIdx
  rw [dif_neg (show ¬(1 : Fin S2048x384.rank) ∈ D0.rhsBatch by decide), dif_pos (show (1 : Fin S2048x384.rank) ∈ D0.rhsNonContracting by decide)]
  rfl

/-- The sign as the kernel spells it, over a whole block, is the three-valued sign at each entry. -/
theorem signBlock_apply {s : Shape} (x : FVec Ideal s .f32) (i : s.Idx) :
    (select (cmpf .ogt (absf x) (broadcast s (Scalar.ofBits .f32 0x00000000#32)))
        (select (cmpf .olt x (constant s .f32 0x00000000#32)) (constant s .f32 0xBF800000#32)
          (constant s .f32 0x3F800000#32)) x) i = Ideal.sign (x i) :=
  Ideal.jnp_sign_eq_sign_f32 (x i)

/-- One point adds, to what the accumulator held, the product of the two sign blocks: at row `p` and column `q` the
    sum over the block's 2048 columns of sign x(p, k) · sign w(q, k). -/
theorem pay2_apply (x : Vec Ideal S2048x2048 .f32) (w : Vec Ideal S384x2048 .f32) (s : Vec Ideal S2048x384 .f32)
    (p : Fin 2048) (q : Fin 384) :
    k0_pay2 (F := Ideal) x w s (ix2 p q)
      = s (ix2 p q) + ∑ kk : Fin 2048, Ideal.sign (x (ix2 p kk)) * Ideal.sign (w (ix2 q kk)) := by
  unfold k0_pay2
  rw [shapeCast_self]
  refine (addf_apply _ _ _).trans ?_
  refine congrArg (s (ix2 p q) + ·) ?_
  refine (Ideal.matmul_constant_zero_apply D0 none _ _ (ix2 p q)).trans ?_
  rw [← Equiv.sum_comp (contrEquiv1 D0 2048 rfl rfl).symm]
  refine Finset.sum_congr rfl fun k _ => ?_
  have hk := contrEquiv1_symm_val D0 2048 rfl rfl k
  have el : D0.lhsIdx (ix2 p q) ((contrEquiv1 D0 2048 rfl rfl).symm k) = ix2 p k := funext fun a => Fin.ext (by
    match a with
    | ⟨0, _⟩ => exact lhs0_0 _ _
    | ⟨1, _⟩ => exact (lhs0_1 _ _).trans hk)
  have er : D0.rhsIdx (ix2 p q) ((contrEquiv1 D0 2048 rfl rfl).symm k) = ix2 k q := funext fun a => Fin.ext (by
    match a with
    | ⟨0, _⟩ => exact (rhs0_0 _ _).trans hk
    | ⟨1, _⟩ => exact rhs0_1 _ _)
  rw [el, er]
  refine congrArg₂ (· * ·) ?_ ?_
  · exact signBlock_apply x (ix2 p k)
  · refine (transpose_ix2_apply _ _ k q).trans ?_
    exact signBlock_apply w (ix2 q k)

/-! ## The blocks, read off the arrays -/

/-- The grid has 32 points. -/
theorem t_lt (t : Fin cfg0.N) : t.val < 32 := lt_of_lt_of_eq t.isLt N_0

/-- The index maps, decided over the grid: point `t` is row block `t / 8` and column block `t % 8`; the second operand
    has one row block. -/
theorem idx_facts0 : ∀ t : Fin cfg0.N, win0_0.index t (0 : Fin 2) = t.val / 8
    ∧ win0_0.index t (1 : Fin 2) = t.val % 8
    ∧ win0_1.index t (0 : Fin 2) = 0
    ∧ win0_1.index t (1 : Fin 2) = t.val % 8 :=
  (by decide +kernel : ∀ t : Fin grid0.N, _)

variable (V : (c : Dev nD) → (b : Ref sig .tc) → Buf (Elt Ideal) ((c : Thread nD τ).loc b))

/-- The first operand's block at point `t`: rows 2048·(t/8) …, columns 2048·(t%8) … of the array. -/
theorem blkX (c : Dev nD) (t : Fin cfg0.N) (p kk : Fin 2048) (row : Fin 8192) (col : Fin 16384)
    (hrow : row.val = 2048 * (t.val / 8) + p.val) (hcol : col.val = 2048 * (t.val % 8) + kk.val) :
    iblk0 (F := Ideal) V c 0 t (ix2 p kk) = V c main_arg0 (ix2 row col) := by
  obtain ⟨e0, e1, e2, e3⟩ := idx_facts0 t
  show V c main_arg0 (((cfg0.win 0).blk t).view.emb (ix2 p kk)) = _
  refine congrArg (V c main_arg0) ?_
  funext a; apply Fin.ext
  match a with
  | ⟨0, _⟩ => show win0_0.index t (0 : Fin 2) * 2048 + 1 * p.val = row.val; omega
  | ⟨1, _⟩ => show win0_0.index t (1 : Fin 2) * 2048 + 1 * kk.val = col.val; omega

/-- The second operand's block at point `t`: all 384 rows, columns 2048·(t%8) … of the array. -/
theorem blkW (c : Dev nD) (t : Fin cfg0.N) (q : Fin 384) (kk : Fin 2048) (col : Fin 16384)
    (hcol : col.val = 2048 * (t.val % 8) + kk.val) :
    iblk0 (F := Ideal) V c 1 t (ix2 q kk) = V c main_arg1 (ix2 q col) := by
  obtain ⟨e0, e1, e2, e3⟩ := idx_facts0 t
  show V c main_arg1 (((cfg0.win 1).blk t).view.emb (ix2 q kk)) = _
  refine congrArg (V c main_arg1) ?_
  funext a; apply Fin.ext
  match a with
  | ⟨0, _⟩ => show win0_1.index t (0 : Fin 2) * 384 + 1 * q.val = q.val; omega
  | ⟨1, _⟩ => show win0_1.index t (1 : Fin 2) * 2048 + 1 * kk.val = col.val; omega

/-! ## Along a row block -/

/-- The product's term at column `k`, as a function of a natural number (zero past the last column). -/
def term (X : Cert.Spec.Mat 8192 16384) (W : Cert.Spec.Mat 384 16384) (i : Fin 8192) (q : Fin 384) (k : ℕ) : EReal :=
  if h : k < 16384 then Ideal.sign (X i ⟨k, h⟩) * Ideal.sign (W q ⟨k, h⟩) else 0

/-- What one point adds is the terms of its 2048 columns. -/
theorem point_sum (c : Dev nD) (t : Fin cfg0.N) (p : Fin 2048) (q : Fin 384) (row : Fin 8192)
    (hrow : row.val = 2048 * (t.val / 8) + p.val) :
    ∑ kk : Fin 2048, Ideal.sign (iblk0 (F := Ideal) V c 0 t (ix2 p kk)) * Ideal.sign (iblk0 (F := Ideal) V c 1 t (ix2 q kk))
      = ∑ kk ∈ Finset.range 2048, term (Cert.Spec.mat (V c main_arg0)) (Cert.Spec.mat (V c main_arg1)) row q (2048 * (t.val % 8) + kk) := by
  rw [Finset.sum_range]
  refine Finset.sum_congr rfl fun kk _ => ?_
  have ht := t_lt t
  have hk : 2048 * (t.val % 8) + kk.val < 16384 := by have := kk.isLt; omega
  rw [blkX V c t p kk row ⟨_, hk⟩ hrow rfl, blkW V c t q kk ⟨_, hk⟩ rfl]
  unfold term
  rw [dif_pos hk]
  rfl

/-- After the point at column block `j` of row block `r` the accumulator holds, at row `p` and column `q`, the terms
    of the columns before 2048·(j+1): zero at the reset, then one block of 2048 columns added per point. -/
theorem acc0_partial (c : Dev nD) : ∀ (n : ℕ) (h : n < cfg0.N) (p : Fin 2048) (q : Fin 384) (row : Fin 8192),
    row.val = 2048 * (n / 8) + p.val →
    acc0 (F := Ideal) V c n h (ix2 p q)
      = ∑ k ∈ Finset.range (2048 * (n % 8 + 1)), term (Cert.Spec.mat (V c main_arg0)) (Cert.Spec.mat (V c main_arg1)) row q k := by
  intro n
  induction n with
  | zero =>
    intro h p q row hrow
    rw [acc0]
    refine (pay2_apply _ _ _ p q).trans ?_
    rw [pay1_apply, zero_add, point_sum V c ⟨0, h⟩ p q row hrow]
    refine Finset.sum_congr rfl fun kk _ => ?_
    show term _ _ row q (2048 * (0 % 8) + kk) = _
    rw [show 2048 * (0 % 8) + kk = kk by omega]
  | succ n ih =>
    intro h p q row hrow
    rw [acc0]
    refine (pay2_apply _ _ _ p q).trans ?_
    rw [point_sum V c ⟨n + 1, h⟩ p q row hrow]
    show _ + ∑ kk ∈ Finset.range 2048, term _ _ row q (2048 * ((n + 1) % 8) + kk) = _
    by_cases h0 : (n + 1) % 8 = 0
    · rw [if_pos h0, pay1_apply, zero_add, h0]
      refine Finset.sum_congr (by norm_num) fun kk _ => ?_
      rw [show 2048 * 0 + kk = kk by omega]
    · rw [if_neg h0, ih (Nat.lt_of_succ_lt h) p q row (by omega),
        show 2048 * ((n + 1) % 8 + 1) = 2048 * (n % 8 + 1) + 2048 by omega, Finset.sum_range_add,
        show 2048 * (n % 8 + 1) = 2048 * ((n + 1) % 8) by omega]

/-! ## The closed form -/

/-- When a row block's last column block has been added, the accumulator holds the whole product: entry (p, q) of
    row block `r = t / 8` is the sum over all 16384 columns of sign x(2048 r + p, k) · sign w1(q, k). -/
theorem acc0_closed (c : Dev nD) (t : Fin cfg0.N) (ht : t.val % 8 = 7) (p : Fin 2048) (q : Fin 384) (row : Fin 8192)
    (hrow : row.val = 2048 * (t.val / 8) + p.val) :
    acc0 (F := Ideal) V c t.val t.isLt (ix2 p q)
      = Cert.Spec.hmat (Cert.Spec.mat (V c main_arg0)) (Cert.Spec.mat (V c main_arg1)) row q := by
  rw [acc0_partial V c t.val t.isLt p q row hrow, ht, Finset.sum_range]
  unfold Cert.Spec.hmat
  refine Finset.sum_congr rfl fun k _ => ?_
  unfold term
  rw [dif_pos k.isLt]

/-- The same with the row written out. -/
theorem acc0_closed_at (c : Dev nD) (t : Fin cfg0.N) (ht : t.val % 8 = 7) (p : Fin 2048) (q : Fin 384) :
    acc0 (F := Ideal) V c t.val t.isLt (ix2 p q)
      = Cert.Spec.hmat (Cert.Spec.mat (V c main_arg0)) (Cert.Spec.mat (V c main_arg1))
          ⟨2048 * (t.val / 8) + p.val, by have := t_lt t; have := p.isLt; omega⟩ q :=
  acc0_closed V c t ht p q _ rfl

end Cert.KSide

end
-- ==== Proof.KGlue.lean ====
/-
  The host operations between the two kernel regions, read index by index on the extended reals.

  Between the regions the host computes, from the first product h, the row of column means (the sum of each column
  from 0, divided by 8192) and the row of biased column variances (the mean of the squared deviations, divided by
  8192 - 0 and selected on 8192 - 0 > 0, which holds), and reshapes γ and β from vectors into rows. It writes neither
  h nor W4.
-/
import proofs.«149079_j33569464385811_1_alg».proof.Proof.Gen.KernelIdeal.Regions
import proofs.«149079_j33569464385811_1_alg».proof.Proof.Spec
import proofs.«149079_j33569464385811_1_alg».proof.Proof.Words
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

noncomputable section

namespace Cert.KSide

open Idealize.ShloMosaic Idealize.ShloMosaic.ValueIdx Idealize.ShloMosaic.StableHlo Cert.KernelIdeal Cert.KernelIdeal.Gen

/-! ## The pieces, over any matrix -/

/-- The host's sum over the rows of an [8192, 384] matrix, at column j: the initial value plus the column's sum. -/
theorem colsum_apply (y : FVec Ideal S8192x384 .f32) (init : FVec Ideal S_ .f32) (hr : S8192x384.ReducesTo [0] S384)
    (hu : 0 < S_.numel) (j : Fin 384) :
    Host.reduceAdd (F := Ideal) y init hr hu (ix1 j) = init (Shape.Idx.first hu) + ∑ k : Fin 8192, y (ix2 k j) := by
  simp only [Host.reduceAdd, Ideal.hostReduceAdd_def]
  rw [Ideal.hostReduceAdd_single hr (by decide)]
  refine congrArg (_ + ·) (Finset.sum_congr rfl fun k _ => ?_)
  exact congrArg y (funext fun a => Fin.ext (by match a with | ⟨0, _⟩ => rfl | ⟨1, _⟩ => rfl))

/-- The host's quotient at an index is the quotient of the entries. -/
theorem host_divf_apply {s : Shape} (a b : FVec Ideal s .f32) (i : s.Idx) :
    Host.divf (F := Ideal) a b i = Ideal.div (a i) (b i) := rfl

/-- A vector laid out as a row reads, at (u, j), the vector at j. -/
theorem row_of_vec_apply {α : Type} (x : S384.Idx → α) (h : S384.BroadcastsInDim S1x384 ![1]) (u : Fin 1) (j : Fin 384) :
    broadcastInDim S1x384 ![1] h x (ix2 u j) = x (ix1 j) :=
  broadcastInDim_apply _ h x _ _ (fun a => match a with
    | ⟨0, _⟩ => by show j.val = if (384 : Nat) = 1 then 0 else j.val; rw [if_neg (by decide)])

/-- A scalar laid out as a row reads the scalar everywhere. -/
theorem row_of_scalar_apply {α : Type} (x : S_.Idx → α) (h : S_.BroadcastsInDim S1x384 ![]) (i : S1x384.Idx) :
    broadcastInDim S1x384 ![] h x i = x ix0 :=
  broadcastInDim_apply _ h x i ix0 (fun a => a.elim0)

/-- A row repeated over the 8192 rows reads, at (k, j), the row at j. -/
theorem rows_of_row_apply {α : Type} (x : S1x384.Idx → α) (h : S1x384.BroadcastsInDim S8192x384 ![0, 1]) (k : Fin 8192)
    (j : Fin 384) : broadcastInDim S8192x384 ![0, 1] h x (ix2 k j) = x (ix2 (0 : Fin 1) j) :=
  broadcastInDim_apply _ h x _ _ (fun a => match a with
    | ⟨0, _⟩ => by show 0 = if (1 : Nat) = 1 then 0 else k.val; rw [if_pos rfl]
    | ⟨1, _⟩ => by show j.val = if (384 : Nat) = 1 then 0 else j.val; rw [if_neg (by decide)])

/-- The row of column means of a matrix, as the host spells it, is the specification's mean. -/
theorem mean_row_apply (y : FVec Ideal S8192x384 .f32) (hr : S8192x384.ReducesTo [0] S384) (hu : 0 < S_.numel)
    (hb1 : S384.BroadcastsInDim S1x384 ![1]) (hb0 : S_.BroadcastsInDim S1x384 ![]) (u : Fin 1) (j : Fin 384) :
    Host.divf (F := Ideal) (broadcastInDim S1x384 ![1] hb1 (Host.reduceAdd (F := Ideal) y (constant S_ .f32 0x00000000#32) hr hu))
        (broadcastInDim S1x384 ![] hb0 (constant (F := Ideal) S_ .f32 0x46000000#32)) (ix2 u j)
      = Cert.Spec.mean 8192 (Cert.Spec.mat y) j := by
  rw [host_divf_apply, row_of_vec_apply, row_of_scalar_apply, colsum_apply, constant_apply, constant_apply, Cert.Words.ofBits_zero,
    Cert.Words.ofBits_8192]
  rfl

/-- The row of biased column variances of a matrix, as the host spells it (dividing by 8192 - 0 where 8192 - 0 > 0),
    is the specification's variance. -/
theorem var_row_apply (y : FVec Ideal S8192x384 .f32) (hr : S8192x384.ReducesTo [0] S384) (hu : 0 < S_.numel)
    (hb1 : S384.BroadcastsInDim S1x384 ![1]) (hb0 : S_.BroadcastsInDim S1x384 ![])
    (hbr : S1x384.BroadcastsInDim S8192x384 ![0, 1]) (u : Fin 1) (j : Fin 384) :
    select (broadcastInDim S1x384 ![] hb0
          (cmpf .ogt (subf (constant (F := Ideal) S_ .f32 0x46000000#32) (sitofp (F := Ideal) .f32 (constantI S_ 32 0#32)))
            (constant (F := Ideal) S_ .f32 0x00000000#32)))
        (Host.divf (F := Ideal)
          (broadcastInDim S1x384 ![1] hb1
            (Host.reduceAdd (F := Ideal)
              (mulf
                (subf y (broadcastInDim S8192x384 ![0, 1] hbr
                  (Host.divf (F := Ideal) (broadcastInDim S1x384 ![1] hb1 (Host.reduceAdd (F := Ideal) y (constant S_ .f32 0x00000000#32) hr hu))
                    (broadcastInDim S1x384 ![] hb0 (constant (F := Ideal) S_ .f32 0x46000000#32)))))
                (subf y (broadcastInDim S8192x384 ![0, 1] hbr
                  (Host.divf (F := Ideal) (broadcastInDim S1x384 ![1] hb1 (Host.reduceAdd (F := Ideal) y (constant S_ .f32 0x00000000#32) hr hu))
                    (broadcastInDim S1x384 ![] hb0 (constant (F := Ideal) S_ .f32 0x46000000#32))))))
              (constant S_ .f32 0x00000000#32) hr hu))
          (broadcastInDim S1x384 ![] hb0
            (subf (constant (F := Ideal) S_ .f32 0x46000000#32) (sitofp (F := Ideal) .f32 (constantI S_ 32 0#32)))))
        (broadcastInDim S1x384 ![] hb0 (id (constant (F := Ideal) S_ .f32 0x7FC00000#32))) (ix2 u j)
      = Cert.Spec.var 8192 (Cert.Spec.mat y) j := by
  have hd : (subf (constant (F := Ideal) S_ .f32 0x46000000#32) (sitofp (F := Ideal) .f32 (constantI S_ 32 0#32))) ix0
      = (8192 : EReal) := by
    show Ideal.ofBits .f32 0x46000000#32 - (((0#32 : BitVec 32).toInt : ℝ) : EReal) = 8192
    rw [Cert.Words.ofBits_8192]
    simp
  rw [select_apply, row_of_scalar_apply, cmpf_apply, hd, constant_apply, Cert.Words.ofBits_zero]
  have hc : FloatOps.cmpf (F := Ideal) (φ := .f32) .ogt (8192 : EReal) 0 = 1#1 := by
    rw [Ideal.cmpf_def]
    have h : (0 : EReal) < 8192 := by
      have : ((0 : ℝ) : EReal) < ((8192 : ℝ) : EReal) := EReal.coe_lt_coe_iff.2 (by norm_num)
      exact this
    simp [Ideal.cmp, h]
  rw [hc]
  rw [host_divf_apply, row_of_vec_apply, row_of_scalar_apply, hd, colsum_apply, constant_apply, Cert.Words.ofBits_zero]
  unfold Cert.Spec.var
  refine congrArg (fun s => Ideal.div (0 + s) 8192) (Finset.sum_congr rfl fun k _ => ?_)
  rw [mulf_apply, subf_apply, rows_of_row_apply, mean_row_apply]
  rfl

/-! ## The three host stretches, over any contents -/

/-- The contents after the three host stretches between the regions, from contents W. -/
abbrev glue (W : Valuation τ sig (Elt Ideal)) : Valuation τ sig (Elt Ideal) :=
  StableHlo.after hostOps1_2 (StableHlo.after hostOps1_1 (StableHlo.after hostOps1 W))

variable (W : Valuation τ sig (Elt Ideal))

/-- The stretches do not write the first product. -/
theorem glue_h : glue W (Proc.devRef .tc main_v0) = W (Proc.devRef .tc main_v0) :=
  (after_of_writes_sub hostOps1_2 _ hostOps1_2_writes (by decide)).trans <|
    (after_of_writes_sub hostOps1_1 _ hostOps1_1_writes (by decide)).trans <|
      after_of_writes_sub hostOps1 _ hostOps1_writes (by decide)

/-- The stretches do not write W4. -/
theorem glue_w4 : glue W (Proc.devRef .tc main_arg4) = W (Proc.devRef .tc main_arg4) :=
  (after_of_writes_sub hostOps1_2 _ hostOps1_2_writes (by decide)).trans <|
    (after_of_writes_sub hostOps1_1 _ hostOps1_1_writes (by decide)).trans <|
      after_of_writes_sub hostOps1 _ hostOps1_writes (by decide)

/-- The mean row the second region is handed is the specification's mean of the first product's columns. -/
theorem glue_mean (j : Fin 384) :
    (glue W (Proc.devRef .tc main_v4) : S1x384.Idx → EReal) (ix2 0 j)
      = Cert.Spec.mean 8192 (Cert.Spec.mat (W (Proc.devRef .tc main_v0) : S8192x384.Idx → EReal)) j := by
  have e : glue W (Proc.devRef .tc main_v4) = StableHlo.after hostOps1 W (Proc.devRef .tc main_v4) :=
    (after_of_writes_sub hostOps1_2 _ hostOps1_2_writes (by decide)).trans
      (after_of_writes_sub hostOps1_1 _ hostOps1_1_writes (by decide))
  rw [e]
  refine Eq.trans ?_ (mean_row_apply (W (Proc.devRef .tc main_v0)) reducesTo_S8192x384_S384_d0 h_S_ bcast_S384_S1x384_1
    bcast_S_S1x384 0 j)
  refine congrFun ?_ _
  after_results

/-- The variance row the second region is handed is the specification's biased variance of the first product's columns. -/
theorem glue_var (j : Fin 384) :
    (glue W (Proc.devRef .tc main_v5) : S1x384.Idx → EReal) (ix2 0 j)
      = Cert.Spec.var 8192 (Cert.Spec.mat (W (Proc.devRef .tc main_v0) : S8192x384.Idx → EReal)) j := by
  have e : glue W (Proc.devRef .tc main_v5)
      = StableHlo.after hostOps1_1 (StableHlo.after hostOps1 W) (Proc.devRef .tc main_v5) :=
    after_of_writes_sub hostOps1_2 _ hostOps1_2_writes (by decide)
  rw [e]
  have hc : (StableHlo.after (hostOps1 (F := Ideal)) W (Proc.devRef .tc main_c) : S_.Idx → BitVec 32) = constantI S_ 32 0#32 := by
    after_results
  have h0 : StableHlo.after (hostOps1 (F := Ideal)) W (Proc.devRef .tc main_v0) = W (Proc.devRef .tc main_v0) :=
    after_of_writes_sub hostOps1 W hostOps1_writes (by decide)
  generalize StableHlo.after (hostOps1 (F := Ideal)) W = V2 at hc h0 ⊢
  refine Eq.trans ?_ (var_row_apply (W (Proc.devRef .tc main_v0)) reducesTo_S8192x384_S384_d0 h_S_ bcast_S384_S1x384_1
    bcast_S_S1x384 bcast_S1x384_S8192x384_0_1 0 j)
  refine congrFun ?_ _
  after_results_simp
  simp only [TRef.toBuf, TRef.ofBuf, cast_eq]
  rw [hc, h0]

/-- The scale row the second region is handed is γ. -/
theorem glue_gamma (j : Fin 384) :
    (glue W (Proc.devRef .tc main_v6) : S1x384.Idx → EReal) (ix2 0 j) = (W (Proc.devRef .tc main_arg2) : S384.Idx → EReal) (ix1 j) := by
  have h2 : StableHlo.after hostOps1_1 (StableHlo.after hostOps1 W) (Proc.devRef .tc main_arg2) = W (Proc.devRef .tc main_arg2) :=
    (after_of_writes_sub hostOps1_1 _ hostOps1_1_writes (by decide)).trans (after_of_writes_sub hostOps1 _ hostOps1_writes (by decide))
  unfold glue
  generalize StableHlo.after (hostOps1_1 (F := Ideal)) (StableHlo.after hostOps1 W) = V3 at h2 ⊢
  have e : (StableHlo.after (hostOps1_2 (F := Ideal)) V3 (Proc.devRef .tc main_v6) : S1x384.Idx → EReal)
      = shapeCast S1x384 (V3 (Proc.devRef .tc main_arg2) : S384.Idx → EReal) shapeCasts_S384_S1x384 := by
    after_results; rfl
  rw [e, shapeCast_a_1a_apply, h2]

/-- The shift row the second region is handed is β. -/
theorem glue_beta (j : Fin 384) :
    (glue W (Proc.devRef .tc main_v7) : S1x384.Idx → EReal) (ix2 0 j) = (W (Proc.devRef .tc main_arg3) : S384.Idx → EReal) (ix1 j) := by
  have h3 : StableHlo.after hostOps1_1 (StableHlo.after hostOps1 W) (Proc.devRef .tc main_arg3) = W (Proc.devRef .tc main_arg3) :=
    (after_of_writes_sub hostOps1_1 _ hostOps1_1_writes (by decide)).trans (after_of_writes_sub hostOps1 _ hostOps1_writes (by decide))
  unfold glue
  generalize StableHlo.after (hostOps1_1 (F := Ideal)) (StableHlo.after hostOps1 W) = V3 at h3 ⊢
  have e : (StableHlo.after (hostOps1_2 (F := Ideal)) V3 (Proc.devRef .tc main_v7) : S1x384.Idx → EReal)
      = shapeCast S1x384 (V3 (Proc.devRef .tc main_arg3) : S384.Idx → EReal) shapeCasts_S384_S1x384 := by
    after_results; rfl
  rw [e, shapeCast_a_1a_apply, h3]

end Cert.KSide

end
-- ==== Proof.KernelValue.lean ====
import proofs.«149079_j33569464385811_1_alg».proof.Proof.Frame
import proofs.«149079_j33569464385811_1_alg».proof.Proof.Final0
import proofs.«149079_j33569464385811_1_alg».proof.Proof.Final1
import proofs.«149079_j33569464385811_1_alg».proof.Proof.KValue0
import proofs.«149079_j33569464385811_1_alg».proof.Proof.KGlue

set_option maxRecDepth 16384

noncomputable section

namespace Cert.KSide

open Cert.KernelIdeal Cert.KernelIdeal.Gen Cert.KernelIdeal.Hand
open Idealize.ShloMosaic Idealize.ShloMosaic.TcCoe Idealize.ShloMosaic.ValueIdx
open Idealize.SL Idealize.SL.Sem

variable (m : (ℓ : Loc nD τ sig) → Buf (Elt Ideal) ℓ)

/-! # The kernel's result is the specification

Region 0 leaves `h` (the product of the sign matrices) in `main_v0`; the host operations between the regions compute
its column means and variances and lay scale and shift as rows; region 1 normalizes, clips, binarizes and multiplies
by the signs of `W4`. Composed, the result array is `Spec.G` of the five argument arrays, index by index. -/

/-- What region 1 finds in `main_v0`: the first product of the launch arrays. -/
theorem entry_h (c : Dev nD) :
    V4r m c main_v0 = Harr (m ((c : Thread nD τ).loc main_arg0)) (m ((c : Thread nD τ).loc main_arg1)) :=
  (W4_of m c main_v0 (by decide) (by decide) (by decide)).trans <| (W1_arr m c 2).trans <|
    final0 (V0r m) c fun t ht p q hb => acc0_closed (V0r m) c t ht p q ⟨_, hb⟩ rfl

theorem entry_w4 (c : Dev nD) : V4r m c main_arg4 = m ((c : Thread nD τ).loc main_arg4) :=
  (W4_of m c main_arg4 (by decide) (by decide) (by decide)).trans (W1_of_ne m c main_arg4 (by decide))

theorem entry_h1 (c : Dev nD) :
    (W1 m c (Proc.devRef .tc main_v0) : S8192x384.Idx → EReal) = Harr (m ((c : Thread nD τ).loc main_arg0)) (m ((c : Thread nD τ).loc main_arg1)) :=
  (W1_arr m c 2).trans <| final0 (V0r m) c fun t ht p q hb => acc0_closed (V0r m) c t ht p q ⟨_, hb⟩ rfl

/-- The product array read by row and column is the specification's matrix. -/
theorem mat_Harr (x : S8192x16384.Idx → EReal) (w : S384x16384.Idx → EReal) :
    Cert.Spec.mat (Harr x w) = Cert.Spec.hmat (Cert.Spec.mat x) (Cert.Spec.mat w) := rfl

theorem entry_mean (c : Dev nD) (j : Fin 384) :
    (V4r m c main_v4 : S1x384.Idx → EReal) (ix2 0 j)
      = Cert.Spec.mean 8192 (Cert.Spec.hmat (Cert.Spec.mat (m ((c : Thread nD τ).loc main_arg0))) (Cert.Spec.mat (m ((c : Thread nD τ).loc main_arg1)))) j := by
  refine (glue_mean (W1 m c) j).trans ?_
  rw [entry_h1, mat_Harr]

theorem entry_var (c : Dev nD) (j : Fin 384) :
    (V4r m c main_v5 : S1x384.Idx → EReal) (ix2 0 j)
      = Cert.Spec.var 8192 (Cert.Spec.hmat (Cert.Spec.mat (m ((c : Thread nD τ).loc main_arg0))) (Cert.Spec.mat (m ((c : Thread nD τ).loc main_arg1)))) j := by
  refine (glue_var (W1 m c) j).trans ?_
  rw [entry_h1, mat_Harr]

theorem entry_gamma (c : Dev nD) (j : Fin 384) :
    (V4r m c main_v6 : S1x384.Idx → EReal) (ix2 0 j) = Cert.Spec.vec (m ((c : Thread nD τ).loc main_arg2)) j :=
  (glue_gamma (W1 m c) j).trans (congrFun (W1_of_ne m c main_arg2 (by decide)) (ix1 j))

theorem entry_beta (c : Dev nD) (j : Fin 384) :
    (V4r m c main_v7 : S1x384.Idx → EReal) (ix2 0 j) = Cert.Spec.vec (m ((c : Thread nD τ).loc main_arg3)) j :=
  (glue_beta (W1 m c) j).trans (congrFun (W1_of_ne m c main_arg3 (by decide)) (ix1 j))

/-- THE RESULT ARRAY at the last boundary is the specification of the launch arrays. -/
theorem kernel_value (c : Dev nD) :
    (W5 m c (Proc.devRef .tc main_v8) : S8192x10.Idx → EReal)
      = fun idx => Cert.Spec.G (Cert.Spec.mat (m ((c : Thread nD τ).loc main_arg0))) (Cert.Spec.mat (m ((c : Thread nD τ).loc main_arg1)))
          (Cert.Spec.vec (m ((c : Thread nD τ).loc main_arg2))) (Cert.Spec.vec (m ((c : Thread nD τ).loc main_arg3)))
          (Cert.Spec.mat (m ((c : Thread nD τ).loc main_arg4))) (idx 0) (idx 1) := by
  refine (W5_arr m c 6).trans <| (final1 (V4r m) c).trans ?_
  funext idx
  unfold Oarr Cert.Spec.G Cert.Spec.out Cert.Spec.bn
  refine Finset.sum_congr rfl fun j _ => ?_
  rw [entry_mean, entry_var, entry_gamma, entry_beta, entry_h, entry_w4]
  rfl

end Cert.KSide
end
-- ==== Proof.SignLaws.lean ====
/-
  Two facts about the three-valued sign on the extended reals.
  (1) The reference spells sign(t) as t + (sign(t) - t). For a real t the two cancel and this is sign(t); at an
      infinity it is not (∞ - ∞), which is why the inputs must be finite.
  (2) A value clipped to [-1, 1] is a real whatever was clipped, so the second use of that spelling, on the
      clipped activations, needs no hypothesis.
-/
import Idealize.ShloMosaic.PureOps.Ideal

noncomputable section

namespace Cert.RefSide

open Idealize.ShloMosaic

/-- For a real t, t + (sign t - t) = sign t. -/
theorem sign_ste_real {t : EReal} (h : ∃ r : ℝ, t = (r : EReal)) : t + (Ideal.sign t - t) = Ideal.sign t := by
  obtain ⟨r, rfl⟩ := h
  rw [Ideal.sign_coe, ← EReal.coe_sub, ← EReal.coe_add]
  congr 1
  ring

/-- Clipping to [-1, 1] gives a real. -/
theorem clip_real (z : EReal) : ∃ r : ℝ, min 1 (max (-1) z) = (r : EReal) := by
  have hlo : (-1 : EReal) ≤ min 1 (max (-1) z) := by
    refine le_min ?_ (le_max_left _ _)
    have : ((-1 : ℝ) : EReal) ≤ ((1 : ℝ) : EReal) := EReal.coe_le_coe_iff.2 (by norm_num)
    simpa using this
  have hhi : min 1 (max (-1) z) ≤ (1 : EReal) := min_le_left _ _
  have hbot : min 1 (max (-1) z) ≠ ⊥ := by
    intro e
    rw [e] at hlo
    have : (⊥ : EReal) < ((-1 : ℝ) : EReal) := EReal.bot_lt_coe _
    have h2 : ((-1 : ℝ) : EReal) ≤ ⊥ := by simpa using hlo
    exact absurd (lt_of_lt_of_le this h2) (lt_irrefl _)
  have htop : min 1 (max (-1) z) ≠ ⊤ := by
    intro e
    rw [e] at hhi
    have : ((1 : ℝ) : EReal) < ⊤ := EReal.coe_lt_top _
    have h2 : (⊤ : EReal) ≤ ((1 : ℝ) : EReal) := by simpa using hhi
    exact absurd (lt_of_lt_of_le this h2) (lt_irrefl _)
  exact ⟨(min 1 (max (-1) z)).toReal, (EReal.coe_toReal htop hbot).symm⟩

/-- So the reference's spelling of the sign of a clipped value is its sign. -/
theorem sign_ste_clip (z : EReal) :
    min 1 (max (-1) z) + (Ideal.sign (min 1 (max (-1) z)) - min 1 (max (-1) z)) = Ideal.sign (min 1 (max (-1) z)) :=
  sign_ste_real (clip_real z)

end Cert.RefSide

end
-- ==== Proof.RefH.lean ====
/-
  The first half of the reference, read index by index: the two binarized operands are the signs of the inputs
  (where the inputs are reals), the first matrix product is the product of the sign matrices, and its column
  mean and biased column variance over the 8192 rows are the specification's.
-/
import proofs.«149079_j33569464385811_1_alg».proof.Proof.Gen.ReferenceIdeal.Read
import proofs.«149079_j33569464385811_1_alg».proof.Proof.Spec
import proofs.«149079_j33569464385811_1_alg».proof.Proof.SignLaws
import proofs.«149079_j33569464385811_1_alg».proof.Proof.Words

noncomputable section

namespace Cert.RefSide

open Idealize.ShloMosaic Idealize.ShloMosaic.ValueIdx Cert.ReferenceIdeal Cert.ReferenceIdeal.Read

/-- The binarized x is sign(x), entry by entry, when x is real. -/
theorem bin_x (x0 : (⟨S8192x16384, .f32⟩ : BufTy).Contents (Elt Ideal)) (h0 : ∀ i, ∃ r : ℝ, x0 i = (r : EReal))
    (i : S8192x16384.Idx) : val_main_v2 (F := Ideal) x0 i = Ideal.sign (x0 i) := by
  rw [val_main_v2_apply, val_main_v1_apply, val_main_v0_apply]
  simp only [Ideal.addf_def, Ideal.subf_def, Ideal.hostUnary_sign_def]
  exact sign_ste_real (h0 i)

/-- The binarized W1 is sign(W1), entry by entry, when W1 is real. -/
theorem bin_w1 (x1 : (⟨S384x16384, .f32⟩ : BufTy).Contents (Elt Ideal)) (h1 : ∀ i, ∃ r : ℝ, x1 i = (r : EReal))
    (i : S384x16384.Idx) : val_main_v5 (F := Ideal) x1 i = Ideal.sign (x1 i) := by
  rw [val_main_v5_apply, val_main_v4_apply, val_main_v3_apply]
  simp only [Ideal.addf_def, Ideal.subf_def, Ideal.hostUnary_sign_def]
  exact sign_ste_real (h1 i)

section
variable (x0 : (⟨S8192x16384, .f32⟩ : BufTy).Contents (Elt Ideal)) (x1 : (⟨S384x16384, .f32⟩ : BufTy).Contents (Elt Ideal))
  (h0 : ∀ i, ∃ r : ℝ, x0 i = (r : EReal)) (h1 : ∀ i, ∃ r : ℝ, x1 i = (r : EReal))
include h0 h1

/-- The first product at row p, column j: the sum over the 16384 shared columns of the products of signs. -/
theorem prod1 (p : Fin 8192) (j : Fin 384) :
    val_main_v6 (F := Ideal) x0 x1 (ix2 p j) = Cert.Spec.hmat (Cert.Spec.mat x0) (Cert.Spec.mat x1) p j := by
  rw [val_main_v6_apply]
  unfold Cert.Spec.hmat Cert.Spec.mat
  refine Finset.sum_congr rfl fun k _ => ?_
  rw [bin_x x0 h0, bin_w1 x1 h1]
  have el : lidx_main_v6 (ix2 p j) k = ix2 p k := by
    funext a; match a with | ⟨0, _⟩ => rfl | ⟨1, _⟩ => rfl
  have er : ridx_main_v6 (ix2 p j) k = ix2 j k := by
    funext a; match a with | ⟨0, _⟩ => rfl | ⟨1, _⟩ => rfl
  rw [el, er]

/-- The column mean: the sum from the zero word over the 8192 rows, divided by the word of 8192. -/
theorem mean_eq (j : Fin 384) :
    val_main_v9 (F := Ideal) x0 x1 (ix1 j)
      = Cert.Spec.mean 8192 (Cert.Spec.hmat (Cert.Spec.mat x0) (Cert.Spec.mat x1)) j := by
  rw [val_main_v9_apply, val_main_v7_apply, val_main_v8_apply, val_main_cst_apply, val_main_cst_0_apply]
  simp only [Ideal.hostDivf_def, Ideal.ofBits_def, Cert.Words.ofBits_zero, Cert.Words.ofBits_8192]
  unfold Cert.Spec.mean
  refine congrArg (fun s => Ideal.div (0 + s) 8192) (Finset.sum_congr rfl fun k _ => ?_)
  have e : idx_main_v7 (ix1 j) k = ix2 k j := by
    funext a; match a with | ⟨0, _⟩ => rfl | ⟨1, _⟩ => rfl
  rw [e, prod1 x0 x1 h0 h1]

/-- The mean broadcast back over the rows (its first use, in the variance). -/
theorem mean_bcast1 (p : Fin 8192) (j : Fin 384) :
    val_main_v11 (F := Ideal) x0 x1 (ix2 p j)
      = Cert.Spec.mean 8192 (Cert.Spec.hmat (Cert.Spec.mat x0) (Cert.Spec.mat x1)) j := by
  rw [val_main_v11_apply, val_main_v10_apply]
  have e : idx_main_v10 (idx_main_v11 (ix2 p j)) = ix1 j := by
    funext a; match a with | ⟨0, _⟩ => rfl
  rw [e, mean_eq x0 x1 h0 h1]

/-- The mean broadcast back over the rows (its second use, in the normalization). -/
theorem mean_bcast2 (p : Fin 8192) (j : Fin 384) :
    val_main_v18 (F := Ideal) x0 x1 (ix2 p j)
      = Cert.Spec.mean 8192 (Cert.Spec.hmat (Cert.Spec.mat x0) (Cert.Spec.mat x1)) j := by
  rw [val_main_v18_apply, val_main_v17_apply]
  have e : idx_main_v17 (idx_main_v18 (ix2 p j)) = ix1 j := by
    funext a; match a with | ⟨0, _⟩ => rfl
  rw [e, mean_eq x0 x1 h0 h1]

/-- The biased column variance: the mean of the squared deviations from the column mean. -/
theorem var_eq (j : Fin 384) :
    val_main_v16 (F := Ideal) x0 x1 (ix1 j)
      = Cert.Spec.var 8192 (Cert.Spec.hmat (Cert.Spec.mat x0) (Cert.Spec.mat x1)) j := by
  rw [val_main_v16_apply, val_main_v14_apply, val_main_v15_apply, val_main_cst_1_apply, val_main_cst_2_apply]
  simp only [Ideal.hostDivf_def, Ideal.ofBits_def, Cert.Words.ofBits_zero, Cert.Words.ofBits_8192]
  unfold Cert.Spec.var
  refine congrArg (fun s => Ideal.div (0 + s) 8192) (Finset.sum_congr rfl fun k _ => ?_)
  have e : idx_main_v14 (ix1 j) k = ix2 k j := by
    funext a; match a with | ⟨0, _⟩ => rfl | ⟨1, _⟩ => rfl
  rw [e, val_main_v13_apply, val_main_v12_apply, prod1 x0 x1 h0 h1, mean_bcast1 x0 x1 h0 h1]
  simp only [Ideal.mulf_def, Ideal.subf_def]

end

end Cert.RefSide

end
-- ==== Proof.RefSpec.lean ====
/-
  The second half of the reference, read index by index: the normalized, scaled, shifted and clipped activation
  is the specification's, its binarization is its sign (a clipped value is a real), the binarized W4 is sign(W4)
  where W4 is real, and the second matrix product is the product of those sign matrices. Together: the reference
  computes the specification's function.
-/
import proofs.«149079_j33569464385811_1_alg».proof.Proof.RefH

noncomputable section

namespace Cert.RefSide

open Idealize.ShloMosaic Idealize.ShloMosaic.ValueIdx Cert.ReferenceIdeal Cert.ReferenceIdeal.Read

/-- The binarized W4 is sign(W4), entry by entry, when W4 is real. -/
theorem bin_w4 (x4 : (⟨S10x384, .f32⟩ : BufTy).Contents (Elt Ideal)) (h4 : ∀ i, ∃ r : ℝ, x4 i = (r : EReal))
    (i : S10x384.Idx) : val_main_v38 (F := Ideal) x4 i = Ideal.sign (x4 i) := by
  rw [val_main_v38_apply, val_main_v37_apply, val_main_v36_apply]
  simp only [Ideal.addf_def, Ideal.subf_def, Ideal.hostUnary_sign_def]
  exact sign_ste_real (h4 i)

section
variable (x0 : (⟨S8192x16384, .f32⟩ : BufTy).Contents (Elt Ideal)) (x1 : (⟨S384x16384, .f32⟩ : BufTy).Contents (Elt Ideal))
  (x2 x3 : (⟨S384, .f32⟩ : BufTy).Contents (Elt Ideal)) (x4 : (⟨S10x384, .f32⟩ : BufTy).Contents (Elt Ideal))
  (h0 : ∀ i, ∃ r : ℝ, x0 i = (r : EReal)) (h1 : ∀ i, ∃ r : ℝ, x1 i = (r : EReal)) (h4 : ∀ i, ∃ r : ℝ, x4 i = (r : EReal))

/-- The scale γ(j), broadcast over the rows. -/
theorem gamma_bcast (p : Fin 8192) (j : Fin 384) : val_main_v27 (F := Ideal) x2 (ix2 p j) = Cert.Spec.vec x2 j := by
  rw [val_main_v27_apply, val_main_v26_apply]
  have e : idx_main_v26 (idx_main_v27 (ix2 p j)) = ix1 j := by
    funext a; match a with | ⟨0, _⟩ => rfl
  rw [e]; rfl

/-- The shift β(j), broadcast over the rows. -/
theorem beta_bcast (p : Fin 8192) (j : Fin 384) : val_main_v30 (F := Ideal) x3 (ix2 p j) = Cert.Spec.vec x3 j := by
  rw [val_main_v30_apply, val_main_v29_apply]
  have e : idx_main_v29 (idx_main_v30 (ix2 p j)) = ix1 j := by
    funext a; match a with | ⟨0, _⟩ => rfl
  rw [e]; rfl

include h0 h1

/-- The reciprocal standard deviation of column j, broadcast over the rows. -/
theorem rstd_bcast (p : Fin 8192) (j : Fin 384) :
    val_main_v24 (F := Ideal) x0 x1 (ix2 p j)
      = Ideal.rsqrt (Cert.Spec.var 8192 (Cert.Spec.hmat (Cert.Spec.mat x0) (Cert.Spec.mat x1)) j + Cert.Spec.eps) := by
  rw [val_main_v24_apply, val_main_v23_apply]
  have e : idx_main_v23 (idx_main_v24 (ix2 p j)) = ix1 j := by
    funext a; match a with | ⟨0, _⟩ => rfl
  rw [e, val_main_v22_apply, val_main_v21_apply, val_main_v20_apply, val_main_cst_3_apply, var_eq x0 x1 h0 h1]
  simp only [Ideal.hostUnary_rsqrt_def, Ideal.addf_def, Ideal.ofBits_def]
  rfl

/-- The clipped, normalized activation at row p, column j. -/
theorem act_eq (p : Fin 8192) (j : Fin 384) :
    val_main_v32 (F := Ideal) x0 x1 x2 x3 (ix2 p j)
      = Cert.Spec.bn 8192 (Cert.Spec.hmat (Cert.Spec.mat x0) (Cert.Spec.mat x1)) (Cert.Spec.vec x2) (Cert.Spec.vec x3) p j := by
  rw [val_main_v32_apply, val_main_call0_v4_apply, val_main_call0_v3_apply, val_main_cst_5_apply,
    val_main_call0_v2_apply, val_main_call0_v1_apply, val_main_call0_v0_apply, val_main_cst_4_apply,
    val_main_v31_apply, val_main_v28_apply, val_main_v25_apply, val_main_v19_apply,
    prod1 x0 x1 h0 h1, mean_bcast2 x0 x1 h0 h1, rstd_bcast x0 x1 h0 h1, gamma_bcast, beta_bcast]
  simp only [Ideal.minimumf_def, Ideal.maximumf_def, Ideal.addf_def, Ideal.mulf_def, Ideal.subf_def, Ideal.ofBits_def,
    Cert.Words.ofBits_one, Cert.Words.ofBits_neg_one]
  rfl

/-- The binarized activation is the sign of the clipped activation: a clipped value is a real. -/
theorem bin_act (p : Fin 8192) (j : Fin 384) :
    val_main_v35 (F := Ideal) x0 x1 x2 x3 (ix2 p j)
      = Ideal.sign (Cert.Spec.bn 8192 (Cert.Spec.hmat (Cert.Spec.mat x0) (Cert.Spec.mat x1)) (Cert.Spec.vec x2) (Cert.Spec.vec x3) p j) := by
  rw [val_main_v35_apply, val_main_v34_apply, val_main_v33_apply, act_eq x0 x1 x2 x3 h0 h1]
  simp only [Ideal.addf_def, Ideal.subf_def, Ideal.hostUnary_sign_def]
  exact sign_ste_clip _

include h4

/-- The reference computes the specification's function, when x, W1 and W4 are arrays of reals. -/
theorem ref_eq :
    val_main_v39 (F := Ideal) x0 x1 x2 x3 x4
      = fun idx => Cert.Spec.G (Cert.Spec.mat x0) (Cert.Spec.mat x1) (Cert.Spec.vec x2) (Cert.Spec.vec x3) (Cert.Spec.mat x4)
          (idx 0) (idx 1) := by
  funext idx
  obtain ⟨p, o, rfl⟩ : ∃ (p : Fin 8192) (o : Fin 10), idx = ix2 p o := ⟨idx 0, idx 1, eq_ix2 idx⟩
  rw [val_main_v39_apply]
  show _ = Cert.Spec.G (Cert.Spec.mat x0) (Cert.Spec.mat x1) (Cert.Spec.vec x2) (Cert.Spec.vec x3) (Cert.Spec.mat x4) p o
  unfold Cert.Spec.G Cert.Spec.out
  refine Finset.sum_congr rfl fun k _ => ?_
  have el : lidx_main_v39 (ix2 p o) k = ix2 p k := by
    funext a; match a with | ⟨0, _⟩ => rfl | ⟨1, _⟩ => rfl
  have er : ridx_main_v39 (ix2 p o) k = ix2 o k := by
    funext a; match a with | ⟨0, _⟩ => rfl | ⟨1, _⟩ => rfl
  rw [el, er, bin_act x0 x1 x2 x3 h0 h1, bin_w4 x4 h4]
  rfl

end

end Cert.RefSide

end
-- ==== Proof.LibRealEntries.lean ====
/-
  General lemmas: arrays of reals among arrays of extended reals, and how a finiteness precondition yields them.

  A float input read on the extended reals ranges over `[-∞, +∞]`; an algebraic law that fails at the infinities
  (cancelling, distributing, a quotient of exponentials) needs the entries to be reals. A precondition of the form
  `all (|x| < +∞)` says exactly that:
  * `AllReal x`: every entry of `x` is the coercion of a real;
  * `top_word_f32`: the f32 word `0x7F800000` denotes `+∞`;
  * `real_of_abs_lt_top`: an extended real whose absolute value `max x (-x)` compares below that word is a real
    (`|±∞| = +∞` is not below `+∞`);
  * `allReal_of_all_abs_lt`: if the host's reduction by `and`, over all axes into a result of one index, of the
    comparison `|x| < inf` (with `inf` the splat of that word) answers one, then `x` is an array of reals.
-/
import Idealize.ShloMosaic.Lib.ReduceAll
import Idealize.ShloMosaic.PureOps.Ideal.Laws

noncomputable section

namespace Cert.Lib

open Idealize.ShloMosaic

/-- Every entry of an array of extended reals is a real. -/
def AllReal {ι : Type} (x : ι → EReal) : Prop := ∀ i, ∃ r : ℝ, x i = (r : EReal)

/-- The f32 word of `+∞` denotes `⊤`. -/
theorem top_word_f32 : Ideal.ofBits .f32 0x7F800000#32 = ⊤ := by simp [Ideal.ofBits, Ideal.ieee]

/-- An extended real whose absolute value is below `+∞` is a real. -/
theorem real_of_abs_lt_top (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [top_word_f32] at h
  induction x using EReal.rec with
  | bot => exfalso; revert h; simp [Ideal.cmpf_def, Ideal.absf_def, Ideal.cmp]
  | top => exfalso; revert h; simp [Ideal.cmpf_def, Ideal.absf_def, Ideal.cmp]
  | coe r => exact ⟨r, rfl⟩

/-- An array all of whose entries pass `|x| < +∞` — the host's reduction by `and` over every axis, into a result of one
    index, answers one — is an array of reals. -/
theorem allReal_of_all_abs_lt {s t u : Shape} [Subsingleton t.Idx] (x inf : FVec Ideal s .f32)
    (hinf : ∀ i, inf i = Ideal.ofBits .f32 0x7F800000#32) {axes : List (Fin s.rank)} (hr : s.ReducesTo axes t)
    (init : u.Idx → BitVec 1) (hu : 0 < u.numel) (j : t.Idx)
    (e : Host.reduce IntOp.andi (cmpf .olt (Host.absf x) inf) init hr hu j = 1#1) : AllReal x := fun i => by
  have hi := Host.reduce_andi_all _ init hr hu j e i
  exact real_of_abs_lt_top (x i) (by rw [← hinf i]; exact hi)

end Cert.Lib

end
-- ==== Proof.Finite.lean ====
/-
  From the finiteness precondition to reals. The precondition is the conjunction, over the five input arrays,
  of "every entry has absolute value below +∞"; read at the one index of its scalar result, the conjunction
  splits into five reductions by `and`, and each says that its array has only real entries.
-/
import proofs.«149079_j33569464385811_1_alg».proof.Pre_finite_inputs
import proofs.«149079_j33569464385811_1_alg».proof.Proof.LibRealEntries
import Idealize.ShloMosaic.Lib.ValueIdx
import Idealize.ShloMosaic.Lib.Affine

noncomputable section

namespace Cert.RefSide

open Idealize.ShloMosaic Cert.Pre_finite_inputs

/-- The scalar shape has one index. -/
instance subsingleton_scalar_idx : Subsingleton S_.Idx := ⟨fun a b => funext fun d => d.elim0⟩

/-- If the finiteness predicate answers true, every entry of every input array is a real. -/
theorem reals_of_pre [Cert.Pre_finite_inputs.Facts]
    (a0 : FVec Ideal S8192x16384 .f32) (a1 : FVec Ideal S384x16384 .f32) (a2 a3 : FVec Ideal S384 .f32)
    (a4 : FVec Ideal S10x384 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [fn, fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨Cert.Lib.allReal_of_all_abs_lt a0 _ (fun _ => rfl) _ _ _ _ e0,
    Cert.Lib.allReal_of_all_abs_lt a1 _ (fun _ => rfl) _ _ _ _ e1,
    Cert.Lib.allReal_of_all_abs_lt a2 _ (fun _ => rfl) _ _ _ _ e2,
    Cert.Lib.allReal_of_all_abs_lt a3 _ (fun _ => rfl) _ _ _ _ e3,
    Cert.Lib.allReal_of_all_abs_lt a4 _ (fun _ => rfl) _ _ _ _ e4⟩

end Cert.RefSide

end
-- ==== Proof.lean ====
/-
  The kernel is a two-layer binarized network on a batch of 8192 rows: h = sign(x) · sign(W1)ᵀ over 16384 columns,
  batch normalization of h over the batch (biased variance, eps inside the reciprocal square root) with scale gamma
  and shift beta, a clip to [-1, 1], and out = sign(y) · sign(W4)ᵀ. The program does it in two pipelined regions
  around a few host operations:
    * region 0 walks a 4 × 8 grid (row block, column block); at each point it adds the product of the two sign
      blocks into a scratch accumulator — reset at column block 0 — and copies the accumulator into the output
      block's buffer, which is written back after the last column block: the accumulator then holds the sum over
      all eight column blocks, that is over all 16384 columns (sums of extended reals regroup freely);
    * the host operations compute the column means and variances of h (the variance's divisor is 8192 − 0, guarded
      by a comparison that holds) and lay gamma and beta as rows;
    * region 1 walks the 8 row blocks of h: normalize, clip, binarize, multiply by sign(W4)ᵀ.
  The reference computes the same function with sign(t) spelt t + (sign(t) − t), which is sign(t) for a real t:
  this is where the precondition (every input entry finite) is used, for x, W1 and W4; the clipped activations are
  real by the clip itself. The kernel's sign (1 with the sign bit of t when |t| > 0, else t) is the three-valued
  sign of every extended real.

  Frames: both kernel programs run region 0, the host stretches and region 1 as segments chained at the thread state
  "every unscoped buffer at the boundary's contents"; the boundary contents are a fold from the launch memory, and no
  segment writes an argument. The reference is host operations only.
-/
import proofs.«149079_j33569464385811_1_alg».proof.Defs
import proofs.«149079_j33569464385811_1_alg».proof.Proof.Gen.Kernel
import proofs.«149079_j33569464385811_1_alg».proof.Proof.Gen.KernelIdeal
import proofs.«149079_j33569464385811_1_alg».proof.Proof.Gen.ReferenceIdeal
import proofs.«149079_j33569464385811_1_alg».proof.Proof.Gen.Pre_finite_inputs
import proofs.«149079_j33569464385811_1_alg».proof.Proof.Gen.ReferenceIdeal.Run
import proofs.«149079_j33569464385811_1_alg».proof.Proof.Gen.ReferenceIdeal.Read
import proofs.«149079_j33569464385811_1_alg».proof.Proof.KFrame
import proofs.«149079_j33569464385811_1_alg».proof.Proof.KernelValue
import proofs.«149079_j33569464385811_1_alg».proof.Proof.RefSpec
import proofs.«149079_j33569464385811_1_alg».proof.Proof.Finite
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's four entries: 1.0 with an operand's sign bit, at the four block shapes. -/
theorem preserves : Cert.preserves_Kernel_KernelIdeal :=
  ⟨IdealRules.sign_bit.statement Cert.KernelIdeal.S2048x2048 .f32, IdealRules.sign_bit.statement Cert.KernelIdeal.S384x2048 .f32,
    IdealRules.sign_bit.statement Cert.KernelIdeal.S1024x384 .f32, IdealRules.sign_bit.statement Cert.KernelIdeal.S10x384 .f32⟩

/-- Both idealized programs end with the result array at the specification of the argument arrays. -/
theorem algebraic : Cert.algebraic_KernelIdeal_ReferenceIdeal := by
  intro m ρ m' ρ' hpre hagree
  refine ⟨fun c => fun idx => Cert.Spec.G (Cert.Spec.mat (m ((c.tc : Thread Cert.KernelIdeal.nD Cert.KernelIdeal.τ).loc Cert.KernelIdeal.main_arg0)))
      (Cert.Spec.mat (m ((c.tc : Thread Cert.KernelIdeal.nD Cert.KernelIdeal.τ).loc Cert.KernelIdeal.main_arg1)))
      (Cert.Spec.vec (m ((c.tc : Thread Cert.KernelIdeal.nD Cert.KernelIdeal.τ).loc Cert.KernelIdeal.main_arg2)))
      (Cert.Spec.vec (m ((c.tc : Thread Cert.KernelIdeal.nD Cert.KernelIdeal.τ).loc Cert.KernelIdeal.main_arg3)))
      (Cert.Spec.mat (m ((c.tc : Thread Cert.KernelIdeal.nD Cert.KernelIdeal.τ).loc Cert.KernelIdeal.main_arg4))) (idx 0) (idx 1), ?_, ?_⟩
  · exact (θ_run Cert.KernelIdeal.defs _ _).mono
      (fun r h c => ⟨(h c).1.trans (Cert.KSide.kernel_value m c), (h c).2⟩) (Cert.KernelIdeal.Hand.run_result m ρ)
  · refine (θ_run Cert.ReferenceIdeal.defs _ _).mono (fun _ h c => ⟨?_, (h c).2⟩)
      (Cert.ReferenceIdeal.Value.run (F := Ideal) m' ρ')
    obtain ⟨r0, r1, -, -, r4⟩ := Cert.RefSide.reals_of_pre _ _ _ _ _ (hpre c)
    rw [(h c).1, Cert.ReferenceIdeal.Read.val_main_v39_eq, (hagree c).1, (hagree c).2.1, (hagree c).2.2.1,
      (hagree c).2.2.2.1, (hagree c).2.2.2.2]
    exact Cert.RefSide.ref_eq _ _ _ _ _ r0 r1 r4

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
